-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x512 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x200x512 .f32) (main_arg1 : FVec F S8x50x512 .f32) (main_arg2 : FVec F S1024x512 .f32) (main_arg3 : FVec F S1024 .f32) (main_arg4 : FVec F S1024x512 .f32) (main_arg5 : FVec F S1024 .f32) (main_arg6 : FVec F S1024x1024 .f32) (main_arg7 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩
abbrev S8x56x512 : Shape := ⟨3, ![8, 56, 512]⟩
abbrev S512x1024 : Shape := ⟨2, ![512, 1024]⟩
abbrev S1x1024 : Shape := ⟨2, ![1, 1024]⟩
abbrev S8x200x50x1024 : Shape := ⟨4, ![8, 200, 50, 1024]⟩
abbrev S1x40x512 : Shape := ⟨3, ![1, 40, 512]⟩
abbrev S1x56x512 : Shape := ⟨3, ![1, 56, 512]⟩
abbrev S1x40x50x1024 : Shape := ⟨4, ![1, 40, 50, 1024]⟩
abbrev S56x1024 : Shape := ⟨2, ![56, 1024]⟩
abbrev S56x512 : Shape := ⟨2, ![56, 512]⟩
abbrev S1x8x512 : Shape := ⟨3, ![1, 8, 512]⟩
abbrev S8x512 : Shape := ⟨2, ![8, 512]⟩
abbrev S8x1024 : Shape := ⟨2, ![8, 1024]⟩
abbrev S8x1x1024 : Shape := ⟨3, ![8, 1, 1024]⟩
abbrev S1x56x1024 : Shape := ⟨3, ![1, 56, 1024]⟩
abbrev S8x56x1024 : Shape := ⟨3, ![8, 56, 1024]⟩
abbrev S448x1024 : Shape := ⟨2, ![448, 1024]⟩
abbrev S448 : Shape := ⟨1, ![448]⟩
abbrev S448x1 : Shape := ⟨2, ![448, 1]⟩
abbrev S8x50x1024 : Shape := ⟨3, ![8, 50, 1024]⟩
abbrev S1x8x50x1024 : Shape := ⟨4, ![1, 8, 50, 1024]⟩

abbrev nBuf : Space → Nat
  | .hbm => 19
  | .vmem => 13
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S8x56x512, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8x200x50x1024, .f32⟩
  | .local _ .vmem, ⟨0, _⟩ => ⟨S1x40x512, .f32⟩
  | .local _ .vmem, ⟨1, _⟩ => ⟨S1x40x512, .f32⟩
  | .local _ .vmem, ⟨2, _⟩ => ⟨S1x56x512, .f32⟩
  | .local _ .vmem, ⟨3, _⟩ => ⟨S1x56x512, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x40x50x1024, .f32⟩
  | .local _ .vmem, ⟨11, _⟩ => ⟨S1x40x50x1024, .f32⟩
  | .local _ .vmem, ⟨12, _⟩ => ⟨S56x1024, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 5], ![false, false]⟩

def k0_mult1 : BitVec 32 :=
  let c0_i32_8 : BitVec 32 := 0#32
  let c8_i32 : BitVec 32 := 8#32
  let v10 : BitVec 32 := Scalar.muli c0_i32_8 c8_i32
  v10
def k0_off1 (c0_i32_8 : BitVec 32) : Fin 3 → Nat :=
  let c0_9 : Index := 0#32
  let c8_i32 : BitVec 32 := 8#32
  let v10 : BitVec 32 := Scalar.muli c0_i32_8 c8_i32
  let v11 : BitVec 32 := v10
  let v12 : Index := Scalar.indexCast v11
  let c0_10 : Index := 0#32
  ![0, v12.toNat, 0]
def k0_off2 (c0_i32_8 : BitVec 32) : Fin 4 → Nat :=
  let c0_16 : Index := 0#32
  let c8_i32 : BitVec 32 := 8#32
  let v10 : BitVec 32 := Scalar.muli c0_i32_8 c8_i32
  let v11 : BitVec 32 := v10
  let v43 : Index := Scalar.indexCast v11
  let c0_17 : Index := 0#32
  let c0_18 : Index := 0#32
  ![0, v43.toNat, 0, 0]
def k0_mult2 : BitVec 32 :=
  let c1_i32 : BitVec 32 := 1#32
  let c8_i32_19 : BitVec 32 := 8#32
  let v47 : BitVec 32 := Scalar.muli c1_i32 c8_i32_19
  v47
def k0_mult3 : BitVec 32 :=
  let c2_i32 : BitVec 32 := 2#32
  let c8_i32_31 : BitVec 32 := 8#32
  let v84 : BitVec 32 := Scalar.muli c2_i32 c8_i32_31
  v84
def k0_mult4 : BitVec 32 :=
  let c3_i32 : BitVec 32 := 3#32
  let c8_i32_43 : BitVec 32 := 8#32
  let v121 : BitVec 32 := Scalar.muli c3_i32 c8_i32_43
  v121
def k0_mult5 : BitVec 32 :=
  let c4_i32 : BitVec 32 := 4#32
  let c8_i32_55 : BitVec 32 := 8#32
  let v158 : BitVec 32 := Scalar.muli c4_i32 c8_i32_55
  v158
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x56x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x40x50x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  pads_S8x50x512_S8x56x512_000_060_000 : S8x50x512.Pads (![0, 0, 0] : Fin 3 → Nat) ![0, 6, 0] ![0, 0, 0] S8x56x512
  h_S_ : 0 < S_.numel
  transposes_S1024x512_S512x1024_1_0 : S1024x512.Transposes [1, 0] S512x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x56x512_S1x56x512_0_0_0 : ∀ a, (![0, 0, 0] : Fin 3 → Nat) a + S1x56x512.size a ≤ S1x56x512.size a
  h_S1x56x512 : 0 < S1x56x512.numel
  shapeCasts_S1x56x512_S56x512 : S1x56x512.ShapeCasts S56x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S56x1024 : S1x1024.Broadcasts S56x1024
  inb_S56x1024_S56x1024_0_0 : ∀ a, (![0, 0] : Fin 2 → Nat) a + S56x1024.size a ≤ S56x1024.size a
  h_S56x1024 : 0 < S56x1024.numel
  shapeCasts_S56x1024_S56x1024 : S56x1024.ShapeCasts S56x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1x8x512 : 0 < S1x8x512.numel
  shapeCasts_S1x8x512_S8x512 : S1x8x512.ShapeCasts S8x512
  broadcasts_S1x1024_S8x1024 : S1x1024.Broadcasts S8x1024
  shapeCasts_S8x1024_S8x1x1024 : S8x1024.ShapeCasts S8x1x1024
  shapeCasts_S56x1024_S1x56x1024 : S56x1024.ShapeCasts S1x56x1024
  broadcasts_S8x1x1024_S8x56x1024 : S8x1x1024.Broadcasts S8x56x1024
  broadcasts_S1x56x1024_S8x56x1024 : S1x56x1024.Broadcasts S8x56x1024
  shapeCasts_S8x56x1024_S448x1024 : S8x56x1024.ShapeCasts S448x1024
  broadcasts_S1x1024_S448x1024 : S1x1024.Broadcasts S448x1024
  reduces_S448x1024_S448 : S448x1024.Reduces [1] S448
  shapeCasts_S448_S448x1 : S448.ShapeCasts S448x1
  broadcasts_S448x1_S448x1024 : S448x1.Broadcasts S448x1024
  shapeCasts_S448x1024_S8x56x1024 : S448x1024.ShapeCasts S8x56x1024
  slices_S8x56x1024_o0_0_0_S8x50x1024 : S8x56x1024.Slices ![0, 0, 0] S8x50x1024
  h_S1x8x50x1024 : 0 < S1x8x50x1024.numel
  shapeCasts_S1x8x50x1024_S8x50x1024 : S1x8x50x1024.ShapeCasts S8x50x1024
  shapeCasts_S8x50x1024_S1x8x50x1024 : S8x50x1024.ShapeCasts S1x8x50x1024
  dot_S56x512_S512x1024_S56x1024_1_0_0_1_n_n_wf : DotDims.WF S56x512 S512x1024 S56x1024 [1] [0] [0] [1] [] []
  dot_S8x512_S512x1024_S8x1024_1_0_0_1_n_n_wf : DotDims.WF S8x512 S512x1024 S8x1024 [1] [0] [0] [1] [] []
  dot_S448x1024_S1024x1024_S448x1024_1_0_0_1_n_n_wf : DotDims.WF S448x1024 S1024x1024 S448x1024 [1] [0] [0] [1] [] []
  hrank0 : 0 < grid0.rank
  k0_mult1_dvd : 8 ∣ k0_mult1.toNat
  k0_off1_inb : ∀ (r : Fin 5), ∀ a, (k0_off1 (BitVec.ofNat 32 r.val)) a + S1x8x512.size a ≤ S1x40x512.size a
  k0_off2_inb : ∀ (r : Fin 5), ∀ a, (k0_off2 (BitVec.ofNat 32 r.val)) a + S1x8x50x1024.size a ≤ S1x40x50x1024.size a
  k0_mult2_dvd : 8 ∣ k0_mult2.toNat
  k0_mult3_dvd : 8 ∣ k0_mult3.toNat
  k0_mult4_dvd : 8 ∣ k0_mult4.toNat
  k0_mult5_dvd : 8 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .f32 = 32 ∨ (Rect.block (s := S8x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x56x512.size a ≤ S8x56x512.size a
  hwx0_1 : ∀ i : grid0.Coords, EltTy.bits .f32 = 32 ∨ (Rect.block (s := S8x56x512) S1x56x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x40x50x1024.size a ≤ S8x200x50x1024.size a
  hwx0_8 : ∀ i : grid0.Coords, EltTy.bits .f32 = 32 ∨ (Rect.block (s := S8x200x50x1024) S1x40x50x1024.size (cc0_transform_8 i) (hinb0_8 i)).WholeWords (EltTy.packing .f32)

variable [Facts₀]

def dot_S56x512_S512x1024_S56x1024_1_0_0_1_n_n : DotDims S56x512 S512x1024 S56x1024 where
  lhsContracting := [1]
  rhsContracting := [0]
  lhsNonContracting := [0]
  rhsNonContracting := [1]
  lhsBatch := []
  rhsBatch := []
  wf := dot_S56x512_S512x1024_S56x1024_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S448x1024_S1024x1024_S448x1024_1_0_0_1_n_n : DotDims S448x1024 S1024x1024 S448x1024 where
  lhsContracting := [1]
  rhsContracting := [0]
  lhsNonContracting := [0]
  rhsNonContracting := [1]
  lhsBatch := []
  rhsBatch := []
  wf := dot_S448x1024_S1024x1024_S448x1024_1_0_0_1_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x56x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x40x50x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S1024x1024 : Shape := ⟨2, ![1024, 1024]⟩
abbrev S8x200x1024 : Shape := ⟨3, ![8, 200, 1024]⟩
abbrev S1x1x1024 : Shape := ⟨3, ![1, 1, 1024]⟩
abbrev S8x50x1024 : Shape := ⟨3, ![8, 50, 1024]⟩
abbrev S8x200x1x1024 : Shape := ⟨4, ![8, 200, 1, 1024]⟩
abbrev S8x1x50x1024 : Shape := ⟨4, ![8, 1, 50, 1024]⟩
abbrev S8x200x50x1024 : Shape := ⟨4, ![8, 200, 50, 1024]⟩
abbrev S1x1x1x1024 : Shape := ⟨4, ![1, 1, 1, 1024]⟩
abbrev S_ : Shape := ⟨0, ![]⟩
abbrev S8x200x50 : Shape := ⟨3, ![8, 200, 50]⟩
abbrev S8x200x50x1 : Shape := ⟨4, ![8, 200, 50, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x200x1024, .f32⟩
  | .hbm, ⟨9, _⟩ => ⟨S1x1x1024, .f32⟩
  | .hbm, ⟨10, _⟩ => ⟨S8x200x1024, .f32⟩
  | .hbm, ⟨11, _⟩ => ⟨S8x200x1024, .f32⟩
  | .hbm, ⟨12, _⟩ => ⟨S8x50x1024, .f32⟩
  | .hbm, ⟨13, _⟩ => ⟨S1x1x1024, .f32⟩
  | .hbm, ⟨14, _⟩ => ⟨S8x50x1024, .f32⟩
  | .hbm, ⟨15, _⟩ => ⟨S8x50x1024, .f32⟩
  | .hbm, ⟨16, _⟩ => ⟨S8x200x1x1024, .f32⟩
  | .hbm, ⟨17, _⟩ => ⟨S8x1x50x1024, .f32⟩
  | .hbm, ⟨18, _⟩ => ⟨S8x200x50x1024, .f32⟩
  | .hbm, ⟨19, _⟩ => ⟨S8x200x50x1024, .f32⟩
  | .hbm, ⟨20, _⟩ => ⟨S8x200x50x1024, .f32⟩
  | .hbm, ⟨21, _⟩ => ⟨S8x200x50x1024, .f32⟩
  | .hbm, ⟨22, _⟩ => ⟨S8x200x50x1024, .f32⟩
  | .hbm, ⟨23, _⟩ => ⟨S1x1x1x1024, .f32⟩
  | .hbm, ⟨24, _⟩ => ⟨S8x200x50x1024, .f32⟩
  | .hbm, ⟨25, _⟩ => ⟨S8x200x50x1024, .f32⟩
  | .hbm, ⟨26, _⟩ => ⟨S_, .f32⟩
  | .hbm, ⟨27, _⟩ => ⟨S8x200x50, .f32⟩
  | .hbm, ⟨28, _⟩ => ⟨S_, .f32⟩
  | .hbm, ⟨29, _⟩ => ⟨S8x200x50, .f32⟩
  | .hbm, ⟨30, _⟩ => ⟨S8x200x50, .f32⟩
  | .hbm, ⟨31, _⟩ => ⟨S8x200x50x1, .f32⟩
  | .hbm, ⟨32, _⟩ => ⟨S8x200x50x1024, .f32⟩
  | .hbm, ⟨33, _⟩ => ⟨S8x200x50x1024, .f32⟩
  | .hbm, ⟨34, _⟩ => ⟨S8x200x50x1024, .f32⟩
  | .hbm, ⟨35, _⟩ => ⟨S_, .f32⟩
  | .hbm, ⟨36, _⟩ => ⟨S8x200x50, .f32⟩
  | .hbm, ⟨37, _⟩ => ⟨S8x200x50x1, .f32⟩
  | .hbm, ⟨38, _⟩ => ⟨S8x200x50x1, .f32⟩
  | .hbm, ⟨39, _⟩ => ⟨S8x200x50x1024, .f32⟩
  | .hbm, ⟨40, _⟩ => ⟨S8x200x50x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x200x1024_0_1_2 : S1x1x1024.BroadcastsInDim S8x200x1024 (![0, 1, 2] : Fin 3 → Fin S8x200x1024.rank)
  bcast_S1x1x1024_S8x50x1024_0_1_2 : S1x1x1024.BroadcastsInDim S8x50x1024 (![0, 1, 2] : Fin 3 → Fin S8x50x1024.rank)
  bcast_S8x200x1024_S8x200x1x1024_0_1_3 : S8x200x1024.BroadcastsInDim S8x200x1x1024 (![0, 1, 3] : Fin 3 → Fin S8x200x1x1024.rank)
  bcast_S8x50x1024_S8x1x50x1024_0_2_3 : S8x50x1024.BroadcastsInDim S8x1x50x1024 (![0, 2, 3] : Fin 3 → Fin S8x1x50x1024.rank)
  bcast_S8x200x1x1024_S8x200x50x1024_0_1_2_3 : S8x200x1x1024.BroadcastsInDim S8x200x50x1024 (![0, 1, 2, 3] : Fin 4 → Fin S8x200x50x1024.rank)
  bcast_S8x1x50x1024_S8x200x50x1024_0_1_2_3 : S8x1x50x1024.BroadcastsInDim S8x200x50x1024 (![0, 1, 2, 3] : Fin 4 → Fin S8x200x50x1024.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  reducesTo_S8x200x50x1024_S8x200x50_d3 : S8x200x50x1024.ReducesTo [3] S8x200x50
  h_S_ : 0 < S_.numel
  bcast_S_S8x200x50 : S_.BroadcastsInDim S8x200x50 (![] : Fin 0 → Fin S8x200x50.rank)
  bcast_S8x200x50_S8x200x50x1_0_1_2 : S8x200x50.BroadcastsInDim S8x200x50x1 (![0, 1, 2] : Fin 3 → Fin S8x200x50x1.rank)
  bcast_S8x200x50x1_S8x200x50x1024_0_1_2_3 : S8x200x50x1.BroadcastsInDim S8x200x50x1024 (![0, 1, 2, 3] : Fin 4 → Fin S8x200x50x1024.rank)
  dot_S8x200x512_S1024x512_S8x200x1024_2_1_01_0_n_n_wf : DotDims.WF S8x200x512 S1024x512 S8x200x1024 [2] [1] [0, 1] [0] [] []
  dot_S8x50x512_S1024x512_S8x50x1024_2_1_01_0_n_n_wf : DotDims.WF S8x50x512 S1024x512 S8x50x1024 [2] [1] [0, 1] [0] [] []
  dot_S8x200x50x1024_S1024x1024_S8x200x50x1024_3_1_012_0_n_n_wf : DotDims.WF S8x200x50x1024 S1024x1024 S8x200x50x1024 [3] [1] [0, 1, 2] [0] [] []

variable [Facts₀]

def dot_S8x200x512_S1024x512_S8x200x1024_2_1_01_0_n_n : DotDims S8x200x512 S1024x512 S8x200x1024 where
  lhsContracting := [2]
  rhsContracting := [1]
  lhsNonContracting := [0, 1]
  rhsNonContracting := [0]
  lhsBatch := []
  rhsBatch := []
  wf := dot_S8x200x512_S1024x512_S8x200x1024_2_1_01_0_n_n_wf
def dot_S8x50x512_S1024x512_S8x50x1024_2_1_01_0_n_n : DotDims S8x50x512 S1024x512 S8x50x1024 where
  lhsContracting := [2]
  rhsContracting := [1]
  lhsNonContracting := [0, 1]
  rhsNonContracting := [0]
  lhsBatch := []
  rhsBatch := []
  wf := dot_S8x50x512_S1024x512_S8x50x1024_2_1_01_0_n_n_wf
def dot_S8x200x50x1024_S1024x1024_S8x200x50x1024_3_1_012_0_n_n : DotDims S8x200x50x1024 S1024x1024 S8x200x50x1024 where
  lhsContracting := [3]
  rhsContracting := [1]
  lhsNonContracting := [0, 1, 2]
  rhsNonContracting := [0]
  lhsBatch := []
  rhsBatch := []
  wf := dot_S8x200x50x1024_S1024x1024_S8x200x50x1024_3_1_012_0_n_n_wf

class Facts : Prop extends Facts₀ where

variable [Facts]
-- ==== Proof.JoinSpec.lean ====
/-
  The joint network's output, as one function of the eight argument arrays.

  For a batch row `b`, an encoder frame `t`, a decoder position `u` and a vocabulary entry `v`:
    e(b,t,j) = (∑ d, enc(b,t,d) · Wenc(j,d)) + benc(j)          the encoder frame projected into the joint space
    p(b,u,j) = (∑ d, dec(b,u,d) · Wdec(j,d)) + bdec(j)          the decoder position projected into the joint space
    l(b,t,u,v) = (∑ j, tanh(e(b,t,j) + p(b,u,j)) · Wfc(v,j)) + bfc(v)   the logits of the pair (t, u)
    out(b,t,u,v) = (l(v) − M) − log (∑ w, exp (l(w) − M)),   M the largest logit of the row
  All of it over the extended reals; the row's largest entry is taken as a fold of `max` from the pattern of −∞,
  which is how both programs compute it, so the pattern is never evaluated.
-/
import Idealize.ShloMosaic.PureOps.Ideal
import Idealize.ShloMosaic.PureOps.Ideal.Laws
import Idealize.ShloMosaic.Lib.ValueIdx

noncomputable section

namespace JoinSpec

open Idealize.ShloMosaic Idealize.ShloMosaic.ValueIdx

/-- The largest entry of a row: the fold of `max` over the row from the f32 pattern of −∞. -/
def rowMax {n : ℕ} (f : Fin n → EReal) : EReal :=
  (Finset.univ : Finset (Fin n)).fold max (Ideal.ofBits .f32 0xFF800000#32) f

/-- The fold starts from the pattern, so the pattern is below it: taking the maximum with the pattern once more
    changes nothing. -/
theorem max_rowMax {n : ℕ} (f : Fin n → EReal) :
    max (Ideal.ofBits .f32 0xFF800000#32) (rowMax f) = rowMax f :=
  max_eq_right ((Finset.le_fold_max _).mpr (Or.inl le_rfl))

/-- The log-softmax of a row: each entry less the row's largest, less the logarithm of the sum of the exponentials of
    the entries so shifted. -/
def logSoftmax {n : ℕ} (f : Fin n → EReal) (v : Fin n) : EReal :=
  (f v - rowMax f) - Ideal.log (∑ w : Fin n, Ideal.exp (f w - rowMax f))

/-- One logit from the two projected rows `e`, `p` (over the joint axis), a row `w` of the output weights and its bias. -/
def logit {J : ℕ} (e p w : Fin J → EReal) (b : EReal) : EReal :=
  (∑ j : Fin J, Ideal.tanh (e j + p j) * w j) + b

/-- One entry of a projection: the inner product of a feature row with a weight row, plus the bias. -/
def proj {D : ℕ} (x w : Fin D → EReal) (b : EReal) : EReal := (∑ d : Fin D, x d * w d) + b

/-- The network's output at `(b, t, u, v)`. -/
def out (enc : (⟨3, ![8, 200, 512]⟩ : Shape).Idx → EReal) (dec : (⟨3, ![8, 50, 512]⟩ : Shape).Idx → EReal)
    (Wenc : (⟨2, ![1024, 512]⟩ : Shape).Idx → EReal) (benc : (⟨1, ![1024]⟩ : Shape).Idx → EReal)
    (Wdec : (⟨2, ![1024, 512]⟩ : Shape).Idx → EReal) (bdec : (⟨1, ![1024]⟩ : Shape).Idx → EReal)
    (Wfc : (⟨2, ![1024, 1024]⟩ : Shape).Idx → EReal) (bfc : (⟨1, ![1024]⟩ : Shape).Idx → EReal)
    (b : Fin 8) (t : Fin 200) (u : Fin 50) (v : Fin 1024) : EReal :=
  logSoftmax (fun w : Fin 1024 =>
    logit (fun j : Fin 1024 => proj (fun d : Fin 512 => enc (ix3 b t d)) (fun d : Fin 512 => Wenc (ix2 j d)) (benc (ix1 j)))
      (fun j : Fin 1024 => proj (fun d : Fin 512 => dec (ix3 b u d)) (fun d : Fin 512 => Wdec (ix2 j d)) (bdec (ix1 j)))
      (fun j : Fin 1024 => Wfc (ix2 w j)) (bfc (ix1 w))) v

/-- The same as an array over `[8, 200, 50, 1024]`. -/
def outArr (enc : (⟨3, ![8, 200, 512]⟩ : Shape).Idx → EReal) (dec : (⟨3, ![8, 50, 512]⟩ : Shape).Idx → EReal)
    (Wenc : (⟨2, ![1024, 512]⟩ : Shape).Idx → EReal) (benc : (⟨1, ![1024]⟩ : Shape).Idx → EReal)
    (Wdec : (⟨2, ![1024, 512]⟩ : Shape).Idx → EReal) (bdec : (⟨1, ![1024]⟩ : Shape).Idx → EReal)
    (Wfc : (⟨2, ![1024, 1024]⟩ : Shape).Idx → EReal) (bfc : (⟨1, ![1024]⟩ : Shape).Idx → EReal) :
    (⟨4, ![8, 200, 50, 1024]⟩ : Shape).Idx → EReal :=
  fun i => out enc dec Wenc benc Wdec bdec Wfc bfc (i 0) (i 1) (i 2) (i 3)

end JoinSpec

end
-- ==== Proof.JoinDots.lean ====
/-
  The kernel's three matrix products read at an index over the extended reals: each multiplies a matrix whose rows are
  feature rows by a transposed weight matrix, contracting the left operand's columns with the right operand's rows, and
  accumulates into zero. At `(i, j)` the product is `∑ k, l (i, k) · r (k, j)`.
-/
import proofs.«179519_j66511863545982_2_alg».proof.Proof.Gen.KernelIdeal
import Idealize.ShloMosaic.Lib.ValueIdx
import Idealize.ShloMosaic.PureOps.Ideal.Laws

noncomputable section

namespace Cert.KernelIdeal.JoinDots

open Cert.KernelIdeal Cert.KernelIdeal.Gen Idealize.ShloMosaic Idealize.ShloMosaic.ValueIdx

/-! ### Eight encoder frames times the transposed encoder weights -/

theorem encDot_l0 (i : S8x1024.Idx) (q : dot_S8x512_S512x1024_S8x1024_1_0_0_1_n_n.contr.Idx) : (dot_S8x512_S512x1024_S8x1024_1_0_0_1_n_n.lhsIdx i q 0).val = (i 0).val := by
  unfold DotDims.lhsIdx
  rw [dif_neg (show ¬(0 : Fin S8x512.rank) ∈ dot_S8x512_S512x1024_S8x1024_1_0_0_1_n_n.lhsBatch by decide), dif_pos (show (0 : Fin S8x512.rank) ∈ dot_S8x512_S512x1024_S8x1024_1_0_0_1_n_n.lhsNonContracting by decide)]
  rfl
theorem encDot_l1 (i : S8x1024.Idx) (q : dot_S8x512_S512x1024_S8x1024_1_0_0_1_n_n.contr.Idx) : (dot_S8x512_S512x1024_S8x1024_1_0_0_1_n_n.lhsIdx i q 1).val = (q ⟨0, by decide⟩).val :=
  dot_S8x512_S512x1024_S8x1024_1_0_0_1_n_n.lhsIdx_val_of_single rfl i q
theorem encDot_r0 (i : S8x1024.Idx) (q : dot_S8x512_S512x1024_S8x1024_1_0_0_1_n_n.contr.Idx) : (dot_S8x512_S512x1024_S8x1024_1_0_0_1_n_n.rhsIdx i q 0).val = (q ⟨0, by decide⟩).val :=
  dot_S8x512_S512x1024_S8x1024_1_0_0_1_n_n.rhsIdx_val_of_single rfl i q
theorem encDot_r1 (i : S8x1024.Idx) (q : dot_S8x512_S512x1024_S8x1024_1_0_0_1_n_n.contr.Idx) : (dot_S8x512_S512x1024_S8x1024_1_0_0_1_n_n.rhsIdx i q 1).val = (i 1).val := by
  unfold DotDims.rhsIdx
  rw [dif_neg (show ¬(1 : Fin S512x1024.rank) ∈ dot_S8x512_S512x1024_S8x1024_1_0_0_1_n_n.rhsBatch by decide), dif_pos (show (1 : Fin S512x1024.rank) ∈ dot_S8x512_S512x1024_S8x1024_1_0_0_1_n_n.rhsNonContracting by decide)]
  rfl

/-- Into a zero accumulator the product at `(i, j)` is the sum over the contracted coordinate `k` of the left operand
    at `(i, k)` times the right operand at `(k, j)`. -/
theorem encDot_apply (prec : Option ContractPrecision) (l : FVec Ideal S8x512 .f32) (r : FVec Ideal S512x1024 .f32) (i : Fin 8) (j : Fin 1024) :
    matmul dot_S8x512_S512x1024_S8x1024_1_0_0_1_n_n prec l r (constant S8x1024 .f32 0x00000000#32) (ix2 i j) = ∑ k : Fin 512, l (ix2 i k) * r (ix2 k j) := by
  simp only [matmul]
  rw [Ideal.matmul_constant_zero_apply, ← Equiv.sum_comp (ValueIdx.contrEquiv1 dot_S8x512_S512x1024_S8x1024_1_0_0_1_n_n 512 rfl rfl).symm]
  refine Finset.sum_congr rfl fun k _ => ?_
  have hk := ValueIdx.contrEquiv1_symm_val dot_S8x512_S512x1024_S8x1024_1_0_0_1_n_n 512 rfl rfl k
  have el : dot_S8x512_S512x1024_S8x1024_1_0_0_1_n_n.lhsIdx (ix2 i j) ((ValueIdx.contrEquiv1 dot_S8x512_S512x1024_S8x1024_1_0_0_1_n_n 512 rfl rfl).symm k) = ix2 i k := funext fun a => Fin.ext (by
    match a with
    | ⟨0, _⟩ => exact encDot_l0 _ _
    | ⟨1, _⟩ => exact (encDot_l1 _ _).trans hk)
  have er : dot_S8x512_S512x1024_S8x1024_1_0_0_1_n_n.rhsIdx (ix2 i j) ((ValueIdx.contrEquiv1 dot_S8x512_S512x1024_S8x1024_1_0_0_1_n_n 512 rfl rfl).symm k) = ix2 k j := funext fun a => Fin.ext (by
    match a with
    | ⟨0, _⟩ => exact (encDot_r0 _ _).trans hk
    | ⟨1, _⟩ => exact encDot_r1 _ _)
  rw [el, er]

/-! ### The padded decoder rows times the transposed decoder weights -/

theorem decDot_l0 (i : S56x1024.Idx) (q : dot_S56x512_S512x1024_S56x1024_1_0_0_1_n_n.contr.Idx) : (dot_S56x512_S512x1024_S56x1024_1_0_0_1_n_n.lhsIdx i q 0).val = (i 0).val := by
  unfold DotDims.lhsIdx
  rw [dif_neg (show ¬(0 : Fin S56x512.rank) ∈ dot_S56x512_S512x1024_S56x1024_1_0_0_1_n_n.lhsBatch by decide), dif_pos (show (0 : Fin S56x512.rank) ∈ dot_S56x512_S512x1024_S56x1024_1_0_0_1_n_n.lhsNonContracting by decide)]
  rfl
theorem decDot_l1 (i : S56x1024.Idx) (q : dot_S56x512_S512x1024_S56x1024_1_0_0_1_n_n.contr.Idx) : (dot_S56x512_S512x1024_S56x1024_1_0_0_1_n_n.lhsIdx i q 1).val = (q ⟨0, by decide⟩).val :=
  dot_S56x512_S512x1024_S56x1024_1_0_0_1_n_n.lhsIdx_val_of_single rfl i q
theorem decDot_r0 (i : S56x1024.Idx) (q : dot_S56x512_S512x1024_S56x1024_1_0_0_1_n_n.contr.Idx) : (dot_S56x512_S512x1024_S56x1024_1_0_0_1_n_n.rhsIdx i q 0).val = (q ⟨0, by decide⟩).val :=
  dot_S56x512_S512x1024_S56x1024_1_0_0_1_n_n.rhsIdx_val_of_single rfl i q
theorem decDot_r1 (i : S56x1024.Idx) (q : dot_S56x512_S512x1024_S56x1024_1_0_0_1_n_n.contr.Idx) : (dot_S56x512_S512x1024_S56x1024_1_0_0_1_n_n.rhsIdx i q 1).val = (i 1).val := by
  unfold DotDims.rhsIdx
  rw [dif_neg (show ¬(1 : Fin S512x1024.rank) ∈ dot_S56x512_S512x1024_S56x1024_1_0_0_1_n_n.rhsBatch by decide), dif_pos (show (1 : Fin S512x1024.rank) ∈ dot_S56x512_S512x1024_S56x1024_1_0_0_1_n_n.rhsNonContracting by decide)]
  rfl

/-- Into a zero accumulator the product at `(i, j)` is the sum over the contracted coordinate `k` of the left operand
    at `(i, k)` times the right operand at `(k, j)`. -/
theorem decDot_apply (prec : Option ContractPrecision) (l : FVec Ideal S56x512 .f32) (r : FVec Ideal S512x1024 .f32) (i : Fin 56) (j : Fin 1024) :
    matmul dot_S56x512_S512x1024_S56x1024_1_0_0_1_n_n prec l r (constant S56x1024 .f32 0x00000000#32) (ix2 i j) = ∑ k : Fin 512, l (ix2 i k) * r (ix2 k j) := by
  simp only [matmul]
  rw [Ideal.matmul_constant_zero_apply, ← Equiv.sum_comp (ValueIdx.contrEquiv1 dot_S56x512_S512x1024_S56x1024_1_0_0_1_n_n 512 rfl rfl).symm]
  refine Finset.sum_congr rfl fun k _ => ?_
  have hk := ValueIdx.contrEquiv1_symm_val dot_S56x512_S512x1024_S56x1024_1_0_0_1_n_n 512 rfl rfl k
  have el : dot_S56x512_S512x1024_S56x1024_1_0_0_1_n_n.lhsIdx (ix2 i j) ((ValueIdx.contrEquiv1 dot_S56x512_S512x1024_S56x1024_1_0_0_1_n_n 512 rfl rfl).symm k) = ix2 i k := funext fun a => Fin.ext (by
    match a with
    | ⟨0, _⟩ => exact decDot_l0 _ _
    | ⟨1, _⟩ => exact (decDot_l1 _ _).trans hk)
  have er : dot_S56x512_S512x1024_S56x1024_1_0_0_1_n_n.rhsIdx (ix2 i j) ((ValueIdx.contrEquiv1 dot_S56x512_S512x1024_S56x1024_1_0_0_1_n_n 512 rfl rfl).symm k) = ix2 k j := funext fun a => Fin.ext (by
    match a with
    | ⟨0, _⟩ => exact (decDot_r0 _ _).trans hk
    | ⟨1, _⟩ => exact decDot_r1 _ _)
  rw [el, er]

/-! ### The flattened pairs times the transposed output weights -/

theorem fcDot_l0 (i : S448x1024.Idx) (q : dot_S448x1024_S1024x1024_S448x1024_1_0_0_1_n_n.contr.Idx) : (dot_S448x1024_S1024x1024_S448x1024_1_0_0_1_n_n.lhsIdx i q 0).val = (i 0).val := by
  unfold DotDims.lhsIdx
  rw [dif_neg (show ¬(0 : Fin S448x1024.rank) ∈ dot_S448x1024_S1024x1024_S448x1024_1_0_0_1_n_n.lhsBatch by decide), dif_pos (show (0 : Fin S448x1024.rank) ∈ dot_S448x1024_S1024x1024_S448x1024_1_0_0_1_n_n.lhsNonContracting by decide)]
  rfl
theorem fcDot_l1 (i : S448x1024.Idx) (q : dot_S448x1024_S1024x1024_S448x1024_1_0_0_1_n_n.contr.Idx) : (dot_S448x1024_S1024x1024_S448x1024_1_0_0_1_n_n.lhsIdx i q 1).val = (q ⟨0, by decide⟩).val :=
  dot_S448x1024_S1024x1024_S448x1024_1_0_0_1_n_n.lhsIdx_val_of_single rfl i q
theorem fcDot_r0 (i : S448x1024.Idx) (q : dot_S448x1024_S1024x1024_S448x1024_1_0_0_1_n_n.contr.Idx) : (dot_S448x1024_S1024x1024_S448x1024_1_0_0_1_n_n.rhsIdx i q 0).val = (q ⟨0, by decide⟩).val :=
  dot_S448x1024_S1024x1024_S448x1024_1_0_0_1_n_n.rhsIdx_val_of_single rfl i q
theorem fcDot_r1 (i : S448x1024.Idx) (q : dot_S448x1024_S1024x1024_S448x1024_1_0_0_1_n_n.contr.Idx) : (dot_S448x1024_S1024x1024_S448x1024_1_0_0_1_n_n.rhsIdx i q 1).val = (i 1).val := by
  unfold DotDims.rhsIdx
  rw [dif_neg (show ¬(1 : Fin S1024x1024.rank) ∈ dot_S448x1024_S1024x1024_S448x1024_1_0_0_1_n_n.rhsBatch by decide), dif_pos (show (1 : Fin S1024x1024.rank) ∈ dot_S448x1024_S1024x1024_S448x1024_1_0_0_1_n_n.rhsNonContracting by decide)]
  rfl

/-- Into a zero accumulator the product at `(i, j)` is the sum over the contracted coordinate `k` of the left operand
    at `(i, k)` times the right operand at `(k, j)`. -/
theorem fcDot_apply (prec : Option ContractPrecision) (l : FVec Ideal S448x1024 .bf16) (r : FVec Ideal S1024x1024 .bf16) (i : Fin 448) (j : Fin 1024) :
    matmul dot_S448x1024_S1024x1024_S448x1024_1_0_0_1_n_n prec l r (constant S448x1024 .f32 0x00000000#32) (ix2 i j) = ∑ k : Fin 1024, l (ix2 i k) * r (ix2 k j) := by
  simp only [matmul]
  rw [Ideal.matmul_constant_zero_apply, ← Equiv.sum_comp (ValueIdx.contrEquiv1 dot_S448x1024_S1024x1024_S448x1024_1_0_0_1_n_n 1024 rfl rfl).symm]
  refine Finset.sum_congr rfl fun k _ => ?_
  have hk := ValueIdx.contrEquiv1_symm_val dot_S448x1024_S1024x1024_S448x1024_1_0_0_1_n_n 1024 rfl rfl k
  have el : dot_S448x1024_S1024x1024_S448x1024_1_0_0_1_n_n.lhsIdx (ix2 i j) ((ValueIdx.contrEquiv1 dot_S448x1024_S1024x1024_S448x1024_1_0_0_1_n_n 1024 rfl rfl).symm k) = ix2 i k := funext fun a => Fin.ext (by
    match a with
    | ⟨0, _⟩ => exact fcDot_l0 _ _
    | ⟨1, _⟩ => exact (fcDot_l1 _ _).trans hk)
  have er : dot_S448x1024_S1024x1024_S448x1024_1_0_0_1_n_n.rhsIdx (ix2 i j) ((ValueIdx.contrEquiv1 dot_S448x1024_S1024x1024_S448x1024_1_0_0_1_n_n 1024 rfl rfl).symm k) = ix2 k j := funext fun a => Fin.ext (by
    match a with
    | ⟨0, _⟩ => exact (fcDot_r0 _ _).trans hk
    | ⟨1, _⟩ => exact fcDot_r1 _ _)
  rw [el, er]

end Cert.KernelIdeal.JoinDots

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.LibRank3Layout.lean ====
/-
  Rank-3 layout operations read at an index, and a lane sum over the last axis of a rank-3 array.

  A pairwise kernel builds an [a, b, c] array out of an [a, c] array (one row per first coordinate), a [b, c] array (one
  row per second coordinate) and a [c] vector (the same for every pair) by inserting unit axes with a shape cast and
  broadcasting along them. Each lemma below reads one such operation at an index written by coordinates
  (`ix2`, `ix3`); the last two read a sum over the last axis of a rank-3 array at a pair `(i, j)` as a sum over the
  third coordinate. All are stated for arbitrary extents.
-/
import Idealize.ShloMosaic.Lib.Pipeline.Value
import Idealize.ShloMosaic.Lib.ValueIdx
import Idealize.ShloMosaic.Lib.ValueLayout
import Idealize.ShloMosaic.PureOps.Ideal.Laws

noncomputable section

namespace Rank3Layout

open Idealize.ShloMosaic Idealize.ShloMosaic.ValueIdx

variable {α : Type}

/-- An `[a, c]` array cast to `[a, 1, c]` reads, at `(i, u, k)`, the operand at `(i, k)`: the inserted middle axis has
    one coordinate, so both indices have the row-major position `i * c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv, Nat.zero_mul, Nat.zero_add])

/-- An `[a, 1, c]` array broadcast to `[a, b, c]` reads, at `(i, j, k)`, the operand at `(i, 0, k)`: the second
    coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: the first
    coordinate is forgotten. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`: only the last
    coordinate is kept. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- Dropping the last axis of `[a, b, c]`: the source index over the pair `(i, j)` with last coordinate `k` is
    `(i, j, k)`. -/
theorem lift_last_eq {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- On the extended reals a `vector.multi_reduction <add>` over the LAST axis of an `[a, b, c]` array, from the neutral
    accumulator, is at the pair `(i, j)` the sum over `k` of the source at `(i, j, k)`. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_eq h i j k))

end Rank3Layout

end
-- ==== Proof.JoinChunk.lean ====
/-
  One chunk of the kernel's body, read at an index over the extended reals.

  A chunk takes eight encoder frames `xc` (rows `r`), the transposed encoder weights `w` and bias row `v8`, the
  projected decoder rows `v9` (56 of them: the 50 positions and six rows of padding), the transposed output weights
  `v4` and bias row `v6`. It projects the frames, adds every projected frame to every decoder row, applies `tanh`,
  flattens the 8 × 56 pairs to 448 rows (pair `(r, u)` is row `56 r + u`), multiplies by the output weights, takes the
  log-softmax of each of the 448 rows, and keeps the rows of the first 50 decoder positions. So at `(r, u, v)` the
  chunk's result is the log-softmax, at `v`, of the logits of the pair `(r, u)`: no other row enters it.
-/
import proofs.«179519_j66511863545982_2_alg».proof.Proof.Gen.KernelIdeal.Skeleton
import proofs.«179519_j66511863545982_2_alg».proof.Proof.JoinSpec
import proofs.«179519_j66511863545982_2_alg».proof.Proof.JoinDots
import proofs.«179519_j66511863545982_2_alg».proof.Proof.LibColumnLayout
import proofs.«179519_j66511863545982_2_alg».proof.Proof.LibRank3Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.JoinChunk

open Cert.KernelIdeal Cert.KernelIdeal.Gen Idealize.ShloMosaic Idealize.ShloMosaic.ValueIdx
open Idealize.ShloMosaic.ColumnLayout

/-- A decoder position as a row of the padded block. -/
abbrev u56 (u : Fin 50) : Fin 56 := ⟨u.val, by have := u.isLt; omega⟩
/-- The flattened row of the pair (frame `r`, padded decoder row `u`). -/
abbrev pairRow (r : Fin 8) (u : Fin 56) : Fin 448 := ⟨r.val * 56 + u.val, by have := r.isLt; have := u.isLt; omega⟩

section
variable (v4 : FVec Ideal S1024x1024 .bf16) (v6 v8 : FVec Ideal S1x1024 .f32) (v9 : Vec Ideal S56x1024 .f32)
  (xc : FVec Ideal S8x512 .f32) (w : FVec Ideal S512x1024 .f32)

/-- The chunk's eight frames projected into the joint space. -/
def encRows : FVec Ideal S8x1024 .f32 :=
  addf (matmul dot_S8x512_S512x1024_S8x1024_1_0_0_1_n_n (some .fp32) xc w (constant S8x1024 .f32 0x00000000#32))
    (broadcastTo S8x1024 v8 broadcasts_S1x1024_S8x1024)

/-- Every projected frame added to every projected decoder row. -/
def joined : FVec Ideal S8x56x1024 .f32 :=
  addf (broadcastTo S8x56x1024 (shapeCast S8x1x1024 (encRows v8 xc w) shapeCasts_S8x1024_S8x1x1024) broadcasts_S8x1x1024_S8x56x1024)
    (broadcastTo S8x56x1024 (shapeCast S1x56x1024 v9 shapeCasts_S56x1024_S1x56x1024) broadcasts_S1x56x1024_S8x56x1024)

/-- The logits of the 448 pairs. -/
def logits : FVec Ideal S448x1024 .f32 :=
  addf (matmul dot_S448x1024_S1024x1024_S448x1024_1_0_0_1_n_n none
      (shapeCast S448x1024 (truncf .bf16 (tanh (joined v8 v9 xc w)) bitsLt_bf16_f32) shapeCasts_S8x56x1024_S448x1024) v4
      (constant S448x1024 .f32 0x00000000#32))
    (broadcastTo S448x1024 v6 broadcasts_S1x1024_S448x1024)

/-- The logits less their row's largest. -/
def shifted : FVec Ideal S448x1024 .f32 :=
  subf (logits v4 v6 v8 v9 xc w)
    (broadcastTo S448x1024 (shapeCast S448x1
      (multiReduction .maximumf [1] S448 (logits v4 v6 v8 v9 xc w) 0xFF800000#32 reduces_S448x1024_S448 (.inl rfl) rfl)
      shapeCasts_S448_S448x1) broadcasts_S448x1_S448x1024)

/-- The log-softmax of each of the 448 rows. -/
def logProbs : FVec Ideal S448x1024 .f32 :=
  subf (shifted v4 v6 v8 v9 xc w)
    (broadcastTo S448x1024 (log (shapeCast S448x1
      (multiReduction .add [1] S448 (exp (shifted v4 v6 v8 v9 xc w)) 0x00000000#32 reduces_S448x1024_S448 (.inl rfl) rfl)
      shapeCasts_S448_S448x1)) broadcasts_S448x1_S448x1024)

/-- The chunk's stored value is the log-softmax rows regrouped by frame, cut to the 50 decoder positions. -/
theorem pay1_eq : k0_pay1 v4 v6 v8 v9 xc w
    = shapeCast S1x8x50x1024 (extractStridedSlice S8x50x1024 ![0, 0, 0]
        (shapeCast S8x56x1024 (logProbs v4 v6 v8 v9 xc w) shapeCasts_S448x1024_S8x56x1024)
        slices_S8x56x1024_o0_0_0_S8x50x1024) shapeCasts_S8x50x1024_S1x8x50x1024 := rfl

theorem encRows_apply (r : Fin 8) (j : Fin 1024) :
    encRows v8 xc w (ix2 r j)
      = JoinSpec.proj (fun d : Fin 512 => xc (ix2 r d)) (fun d : Fin 512 => w (ix2 d j)) (v8 (ix2 (0 : Fin 1) j)) := by
  unfold encRows JoinSpec.proj
  rw [addf_apply, JoinDots.encDot_apply, broadcastTo_1b_ab_apply]

theorem joined_apply (r : Fin 8) (u : Fin 56) (j : Fin 1024) :
    joined v8 v9 xc w (ix3 r u j) = encRows v8 xc w (ix2 r j) + v9 (ix2 u j) := by
  unfold joined
  rw [addf_apply, Rank3Layout.broadcastTo_a1c_abc_apply, Rank3Layout.shapeCast_ac_a1c_apply,
    Rank3Layout.broadcastTo_1bc_abc_apply, shapeCast_ab_1ab_apply]

/-- Row `56 r + u` of the flattened pairs is the pair `(r, u)`. -/
theorem flat_apply (T : FVec Ideal S8x56x1024 .bf16) (r : Fin 8) (u : Fin 56) (j : Fin 1024) :
    shapeCast S448x1024 T shapeCasts_S8x56x1024_S448x1024 (ix2 (pairRow r u) j) = T (ix3 r u j) :=
  shapeCast_apply T shapeCasts_S8x56x1024_S448x1024 (ix2 (pairRow r u) j) (ix3 r u j) (by
    rw [Shape.rowMajor_val_three, Shape.rowMajor_val_two]
    show (r.val * 56 + u.val) * 1024 + j.val = (r.val * 56 + u.val) * 1024 + j.val
    rfl)

theorem logits_apply (r : Fin 8) (u : Fin 56) (v : Fin 1024) :
    logits v4 v6 v8 v9 xc w (ix2 (pairRow r u) v)
      = JoinSpec.logit (fun j : Fin 1024 => encRows v8 xc w (ix2 r j)) (fun j : Fin 1024 => v9 (ix2 u j))
          (fun j : Fin 1024 => v4 (ix2 j v)) (v6 (ix2 (0 : Fin 1) v)) := by
  unfold logits JoinSpec.logit
  rw [addf_apply, JoinDots.fcDot_apply, broadcastTo_1b_ab_apply]
  refine congrArg (· + _) (Finset.sum_congr rfl fun j _ => ?_)
  refine congrArg (· * _) ?_
  rw [flat_apply]
  show Ideal.tanh (joined v8 v9 xc w (ix3 r u j)) = _
  rw [joined_apply]

end

/-- Dropping the second axis of `[448, 1024]`: the source index over row `p` with column `v` is `(p, v)`. -/
theorem lift_eq (p : Fin 448) (v : Fin 1024) : reduces_S448x1024_S448.lift (ix1 p) v = ix2 p v :=
  funext fun a => Fin.ext (by match a with | ⟨0, _⟩ => rfl | ⟨1, _⟩ => rfl)

/-- A row's largest entry, as the kernel's lane reduction computes it. -/
theorem rowMax_apply (L : FVec Ideal S448x1024 .f32) (p : Fin 448) :
    multiReduction .maximumf [1] S448 L 0xFF800000#32 reduces_S448x1024_S448 (.inl rfl) rfl (ix1 p)
      = JoinSpec.rowMax (fun v : Fin 1024 => L (ix2 p v)) := by
  refine (Ideal.multiReduction_maximumf_single L 0xFF800000#32 reduces_S448x1024_S448 (.inl rfl) rfl (ix1 p)).trans ?_
  unfold JoinSpec.rowMax
  exact congrArg (Finset.fold max (Ideal.ofBits .f32 0xFF800000#32) · (Finset.univ : Finset (Fin 1024)))
    (funext fun v => congrArg L (lift_eq p v))

/-- A row's sum, as the kernel's lane reduction computes it. -/
theorem rowSum_apply (X : FVec Ideal S448x1024 .f32) (p : Fin 448) :
    multiReduction .add [1] S448 X 0x00000000#32 reduces_S448x1024_S448 (.inl rfl) rfl (ix1 p)
      = ∑ v : Fin 1024, X (ix2 p v) := by
  refine (Ideal.multiReduction_add_single X 0x00000000#32 reduces_S448x1024_S448 (.inl rfl) rfl (ix1 p)).trans ?_
  exact Finset.sum_congr rfl fun v _ => congrArg X (lift_eq p v)

section
variable (v4 : FVec Ideal S1024x1024 .bf16) (v6 v8 : FVec Ideal S1x1024 .f32) (v9 : Vec Ideal S56x1024 .f32)
  (xc : FVec Ideal S8x512 .f32) (w : FVec Ideal S512x1024 .f32)

theorem shifted_apply (p : Fin 448) (v : Fin 1024) :
    shifted v4 v6 v8 v9 xc w (ix2 p v)
      = logits v4 v6 v8 v9 xc w (ix2 p v) - JoinSpec.rowMax (fun v' : Fin 1024 => logits v4 v6 v8 v9 xc w (ix2 p v')) := by
  unfold shifted
  rw [subf_apply, broadcastTo_a1_ab_apply, shapeCast_a_a1_apply, rowMax_apply]

theorem logProbs_apply (p : Fin 448) (v : Fin 1024) :
    logProbs v4 v6 v8 v9 xc w (ix2 p v)
      = JoinSpec.logSoftmax (fun v' : Fin 1024 => logits v4 v6 v8 v9 xc w (ix2 p v')) v := by
  unfold logProbs JoinSpec.logSoftmax
  rw [subf_apply, broadcastTo_a1_ab_apply]
  show _ - Ideal.log (shapeCast S448x1 _ shapeCasts_S448_S448x1 (ix2 p (0 : Fin 1))) = _
  rw [shapeCast_a_a1_apply, rowSum_apply, shifted_apply]
  refine congrArg (_ - Ideal.log ·) (Finset.sum_congr rfl fun v' _ => ?_)
  show Ideal.exp (shifted v4 v6 v8 v9 xc w (ix2 p v')) = _
  rw [shifted_apply]

/-- THE CHUNK AT AN INDEX: at frame `r`, decoder position `u` and vocabulary entry `v` the stored value is the
    log-softmax at `v` of the logits of the pair `(r, u)`. -/
theorem chunk_apply (z : Fin 1) (r : Fin 8) (u : Fin 50) (v : Fin 1024) :
    k0_pay1 v4 v6 v8 v9 xc w (ix4 z r u v)
      = JoinSpec.logSoftmax (fun v' : Fin 1024 =>
          JoinSpec.logit
            (fun j : Fin 1024 => JoinSpec.proj (fun d : Fin 512 => xc (ix2 r d)) (fun d : Fin 512 => w (ix2 d j)) (v8 (ix2 (0 : Fin 1) j)))
            (fun j : Fin 1024 => v9 (ix2 (u56 u) j)) (fun j : Fin 1024 => v4 (ix2 j v')) (v6 (ix2 (0 : Fin 1) v'))) v := by
  rw [pay1_eq]
  refine (shapeCast_abc_1abc_apply _ shapeCasts_S8x50x1024_S1x8x50x1024 z r u v).trans ?_
  refine (extractStridedSlice_apply ![0, 0, 0] _ slices_S8x56x1024_o0_0_0_S8x50x1024 (ix3 r u v) (ix3 r (u56 u) v) (fun a => by
    match a with
    | ⟨0, _⟩ => show r.val = 0 + r.val; omega
    | ⟨1, _⟩ => show u.val = 0 + u.val; omega
    | ⟨2, _⟩ => show v.val = 0 + v.val; omega)).trans ?_
  refine (shapeCast_apply _ shapeCasts_S448x1024_S8x56x1024 (ix3 r (u56 u) v) (ix2 (pairRow r (u56 u)) v) (by
    rw [Shape.rowMajor_val_two, Shape.rowMajor_val_three]
    show (r.val * 56 + u.val) * 1024 + v.val = (r.val * 56 + u.val) * 1024 + v.val
    rfl)).trans ?_
  rw [logProbs_apply]
  refine congrArg (fun f => JoinSpec.logSoftmax f v) (funext fun v' => ?_)
  rw [logits_apply]
  refine congrArg (fun e => JoinSpec.logit e _ _ _) (funext fun j => ?_)
  exact encRows_apply v8 xc w r j

end

end Cert.KernelIdeal.JoinChunk

end
-- ==== Proof.JoinBlock.lean ====
/-
  What one grid point leaves in the output block and in the carried decoder projection, as values.

  A grid point `(b, τ)` holds forty encoder frames of batch row `b`. Its body runs five chunks of eight frames; chunk
  `k` stores rows `8k … 8k+7` of the `[1, 40, 50, 1024]` output block. Every chunk computes the same function of its
  eight frames (the chunk lemma), so the block the five stores leave is ONE function of the block index: at
  `(0, s, u, v)` the log-softmax at `v` of the logits of frame `s` of the point against decoder position `u`.
  At the first point of a batch row the body also recomputes the projected decoder rows and stores them in the carried
  scratch; at the other four points it reads what the first left.
-/
import proofs.«179519_j66511863545982_2_alg».proof.Proof.Gen.KernelIdeal.Frame
import proofs.«179519_j66511863545982_2_alg».proof.Proof.JoinChunk
import Idealize.ShloMosaic.Lib.Pipeline.Value
import Idealize.ShloMosaic.Lib.Tactic

noncomputable section

namespace Cert.KernelIdeal.JoinBlock

open Cert.KernelIdeal Cert.KernelIdeal.Gen Idealize.ShloMosaic Idealize.ShloMosaic.TcCoe Idealize.ShloMosaic.Tactic
open Idealize.SL.Sem Idealize.ShloMosaic.ValueIdx Cert.KernelIdeal.JoinChunk

theorem hz2 : (![0, 0] : Fin 2 → Nat) = fun _ => 0 := funext fun a => by fin_cases a <;> rfl
theorem hz3 : (![0, 0, 0] : Fin 3 → Nat) = fun _ => 0 := funext fun a => by fin_cases a <;> rfl

/-! ## The five stores' payloads are one chunk function -/

section Payloads
variable {F : FTy → Type} [FloatOps F]
variable (v4 : FVec F S1024x1024 .bf16) (v6 v8 : FVec F S1x1024 .f32) (v9 : Vec F S56x1024 .f32)

/-- The chunk written through its own payload name is the chunk function of its frames and weights cast to matrices. -/
theorem pay12_eq (a : Vec F S1x8x512 .f32) (b : Vec F S512x1024 .f32) :
    k0_pay12 v4 v6 v8 v9 a b
      = k0_pay1 v4 v6 v8 v9 (shapeCast S8x512 a shapeCasts_S1x8x512_S8x512) (shapeCast S512x1024 b shapeCasts_S512x1024_S512x1024) := rfl
theorem pay11_eq (a : Vec F S1x8x512 .f32) (b : Vec F S512x1024 .f32) :
    k0_pay11 v4 v6 v8 v9 a b
      = k0_pay1 v4 v6 v8 v9 (shapeCast S8x512 a shapeCasts_S1x8x512_S8x512) (shapeCast S512x1024 b shapeCasts_S512x1024_S512x1024) := rfl
theorem pay10_eq (a : Vec F S1x8x512 .f32) (b : Vec F S512x1024 .f32) :
    k0_pay10 (k0_pay9 v4 v6 v8 v9 a b)
      = k0_pay1 v4 v6 v8 v9 (shapeCast S8x512 a shapeCasts_S1x8x512_S8x512) (shapeCast S512x1024 b shapeCasts_S512x1024_S512x1024) := rfl
theorem pay8_eq (x6 : Vec F S1024x1024 .bf16) (x7 x3 : Vec F S1x1024 .f32) (a : Vec F S1x8x512 .f32) (b : Vec F S512x1024 .f32) :
    k0_pay8 (k0_pay6 x6 x7 x3 v9 a b) (k0_pay7 x6 x7 x3 v9 a b)
      = k0_pay1 (k0_pay3 x6) (k0_pay4 x7) (k0_pay5 x3) v9 (shapeCast S8x512 a shapeCasts_S1x8x512_S8x512) (shapeCast S512x1024 b shapeCasts_S512x1024_S512x1024) := rfl
theorem pay13_eq (a : Vec F S1x8x512 .f32) : k0_pay13 a = shapeCast S8x512 a shapeCasts_S1x8x512_S8x512 := rfl
theorem pay14_eq (b : Vec F S512x1024 .f32) : k0_pay14 b = shapeCast S512x1024 b shapeCasts_S512x1024_S512x1024 := rfl

end Payloads

/-! ## The block function -/

/-- The frame, decoder position and vocabulary entry of a block index. -/
abbrev tOf (y : S1x40x50x1024.Idx) : Fin 40 := ⟨(y 1).val, (y 1).isLt⟩
abbrev uOf (y : S1x40x50x1024.Idx) : Fin 50 := ⟨(y 2).val, (y 2).isLt⟩
abbrev vOf (y : S1x40x50x1024.Idx) : Fin 1024 := ⟨(y 3).val, (y 3).isLt⟩

/-- The output block of a point: from its forty frames `x0`, the transposed encoder weights `w` and bias row `v8`, the
    projected decoder rows `dp`, the transposed output weights `v4` and bias row `v6`. -/
def blockOut (v4 : FVec Ideal S1024x1024 .bf16) (v6 v8 : FVec Ideal S1x1024 .f32) (dp : Vec Ideal S56x1024 .f32)
    (w : FVec Ideal S512x1024 .f32) (x0 : Vec Ideal S1x40x512 .f32) : S1x40x50x1024.Idx → EReal := fun y =>
  JoinSpec.logSoftmax (fun v' : Fin 1024 =>
    JoinSpec.logit
      (fun j : Fin 1024 => JoinSpec.proj (fun d : Fin 512 => x0 (ix3 (0 : Fin 1) (tOf y) d)) (fun d : Fin 512 => w (ix2 d j)) (v8 (ix2 (0 : Fin 1) j)))
      (fun j : Fin 1024 => dp (ix2 (u56 (uOf y)) j)) (fun j : Fin 1024 => v4 (ix2 j v')) (v6 (ix2 (0 : Fin 1) v'))) (vOf y)

/-- CHUNK `o / 8`: the chunk function of the eight frames from row `o` on is the block function on rows `o … o+7`. -/
theorem piece_apply (o : ℕ) (inb1 : ∀ a, (![0, o, 0] : Fin 3 → ℕ) a + S1x8x512.size a ≤ S1x40x512.size a)
    (inb2 : ∀ a, (![0, o, 0, 0] : Fin 4 → ℕ) a + (![1, 8, 50, 1024] : Fin 4 → ℕ) a ≤ S1x40x50x1024.size a)
    (v4 : FVec Ideal S1024x1024 .bf16) (v6 v8 : FVec Ideal S1x1024 .f32) (dp : Vec Ideal S56x1024 .f32)
    (w : FVec Ideal S512x1024 .f32) (x0 : Vec Ideal S1x40x512 .f32) (x : S1x8x50x1024.Idx) :
    k0_pay1 v4 v6 v8 dp (shapeCast S8x512 (View.ld x0 (Rect.unit (s := S1x40x512) ![0, o, 0] S1x8x512.size inb1)) shapeCasts_S1x8x512_S8x512) w x
      = blockOut v4 v6 v8 dp w x0 ((Rect.unit (s := S1x40x50x1024) ![0, o, 0, 0] ![1, 8, 50, 1024] inb2).emb x) := by
  obtain ⟨z, r, u, v, rfl⟩ : ∃ (z : Fin 1) (r : Fin 8) (u : Fin 50) (v : Fin 1024), x = ix4 z r u v :=
    ⟨x 0, x 1, x 2, x 3, eq_ix4 x⟩
  rw [chunk_apply]
  unfold blockOut
  have hv : vOf ((Rect.unit (s := S1x40x50x1024) ![0, o, 0, 0] ![1, 8, 50, 1024] inb2).emb (ix4 z r u v)) = v :=
    Fin.ext (by show 0 + 1 * v.val = v.val; omega)
  have hu : u56 (uOf ((Rect.unit (s := S1x40x50x1024) ![0, o, 0, 0] ![1, 8, 50, 1024] inb2).emb (ix4 z r u v))) = u56 u :=
    Fin.ext (by show 0 + 1 * u.val = u.val; omega)
  have hx : ∀ d : Fin 512,
      shapeCast S8x512 (View.ld x0 (Rect.unit (s := S1x40x512) ![0, o, 0] S1x8x512.size inb1)) shapeCasts_S1x8x512_S8x512 (ix2 r d)
        = x0 (ix3 (0 : Fin 1) (tOf ((Rect.unit (s := S1x40x50x1024) ![0, o, 0, 0] ![1, 8, 50, 1024] inb2).emb (ix4 z r u v))) d) := fun d => by
    rw [shapeCast_1ab_ab_apply]
    refine congrArg x0 (funext fun a => Fin.ext ?_)
    match a with
    | ⟨0, _⟩ => show 0 + 1 * 0 = 0; rfl
    | ⟨1, _⟩ => show o + 1 * r.val = o + 1 * r.val; rfl
    | ⟨2, _⟩ => show 0 + 1 * d.val = d.val; omega
  rw [hv, hu]
  simp only [hx]

/-! ## What each case of the body leaves -/

/-- THE FIRST POINT OF A BATCH ROW leaves in the carried scratch the decoder rows projected: the product of the padded
    decoder block with the transposed decoder weights, plus the bias row. -/
theorem sout_A (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x40x50x1024 .f32) (harg10 : arg10.IsWhole) (arg11 : Memref sig .tc .vmem S56x1024 .f32) (harg11 : arg11.IsWhole) (hc0 : cond0_0 i) (x0 : Vec Ideal S1x40x512 .f32) (x1 : Vec Ideal S1x56x512 .f32) (x2 : Vec Ideal S512x1024 .f32) (x3 : Vec Ideal S1x1024 .f32) (x4 : Vec Ideal S512x1024 .f32) (x5 : Vec Ideal S1x1024 .f32) (x6 : Vec Ideal S1024x1024 .bf16) (x7 : Vec Ideal S1x1024 .f32) :
    sout0_A_0 (F := Ideal) c i arg2 harg2 arg3 harg3 arg4 harg4 arg5 harg5 arg6 harg6 arg7 harg7 arg8 harg8 arg9 harg9 arg10 harg10 arg11 harg11 hc0 x0 x1 x2 x3 x4 x5 x6 x7 = k0_pay2 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S1024x1024) hz2, View.ld_unit_zero (S := S1x1024) hz2, View.ld_unit_zero (S := S512x1024) hz2, View.ld_unit_zero (S := S56x1024) hz2, View.ld_unit_zero (S := S1x56x512) hz3]

/-- … and in the output block the block function over those freshly projected decoder rows. -/
theorem out_A (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x40x50x1024 .f32) (harg10 : arg10.IsWhole) (arg11 : Memref sig .tc .vmem S56x1024 .f32) (harg11 : arg11.IsWhole) (hc0 : cond0_0 i) (x0 : Vec Ideal S1x40x512 .f32) (x1 : Vec Ideal S1x56x512 .f32) (x2 : Vec Ideal S512x1024 .f32) (x3 : Vec Ideal S1x1024 .f32) (x4 : Vec Ideal S512x1024 .f32) (x5 : Vec Ideal S1x1024 .f32) (x6 : Vec Ideal S1024x1024 .bf16) (x7 : Vec Ideal S1x1024 .f32) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 x7
      = blockOut (k0_pay3 x6) (k0_pay4 x7) (k0_pay5 x3) (k0_pay2 x1 x4 x5) (shapeCast S512x1024 x2 shapeCasts_S512x1024_S512x1024) x0 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  funext y
  refine View.canon_apply_of_pieces (blockOut (k0_pay3 x6) (k0_pay4 x7) (k0_pay5 x3) (k0_pay2 x1 x4 x5) (shapeCast S512x1024 x2 shapeCasts_S512x1024_S512x1024) x0) _ ?_ y
    (cover0_A_8 c i arg2 harg2 arg3 harg3 arg4 harg4 arg5 harg5 arg6 harg6 arg7 harg7 arg8 harg8 arg9 harg9 arg10 harg10 arg11 harg11 hc0 x0 x1 x2 x3 x4 x5 x6 x7 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, View.ld_unit_zero (S := S1024x1024) hz2, View.ld_unit_zero (S := S1x1024) hz2, View.ld_unit_zero (S := S512x1024) hz2, View.ld_unit_zero (S := S56x1024) hz2, View.ld_unit_zero (S := S1x56x512) hz3, View.readCov_unit_zero (S := S56x1024) _ hz2, pay12_eq, pay11_eq, pay10_eq, pay8_eq, pay13_eq, pay14_eq]
  intro p hp
  simp only [List.mem_cons, List.mem_singleton, List.not_mem_nil, or_false] at hp
  rcases hp with rfl | rfl | rfl | rfl | rfl
  · intro x; exact piece_apply 32 (by decide) (by decide) (k0_pay3 x6) (k0_pay4 x7) (k0_pay5 x3) (k0_pay2 x1 x4 x5) (shapeCast S512x1024 x2 shapeCasts_S512x1024_S512x1024) x0 x
  · intro x; exact piece_apply 24 (by decide) (by decide) (k0_pay3 x6) (k0_pay4 x7) (k0_pay5 x3) (k0_pay2 x1 x4 x5) (shapeCast S512x1024 x2 shapeCasts_S512x1024_S512x1024) x0 x
  · intro x; exact piece_apply 16 (by decide) (by decide) (k0_pay3 x6) (k0_pay4 x7) (k0_pay5 x3) (k0_pay2 x1 x4 x5) (shapeCast S512x1024 x2 shapeCasts_S512x1024_S512x1024) x0 x
  · intro x; exact piece_apply 8 (by decide) (by decide) (k0_pay3 x6) (k0_pay4 x7) (k0_pay5 x3) (k0_pay2 x1 x4 x5) (shapeCast S512x1024 x2 shapeCasts_S512x1024_S512x1024) x0 x
  · intro x; exact piece_apply 0 (by decide) (by decide) (k0_pay3 x6) (k0_pay4 x7) (k0_pay5 x3) (k0_pay2 x1 x4 x5) (shapeCast S512x1024 x2 shapeCasts_S512x1024_S512x1024) x0 x

/-- ANY OTHER POINT leaves the block function over the decoder rows the point before left in the scratch. -/
theorem out_B (c : Dev nD) (i : grid0.Coords) (arg2 : Memref sig .tc .vmem S1x40x512 .f32) (harg2 : arg2.IsWhole) (arg3 : Memref sig .tc .vmem S1x56x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x40x50x1024 .f32) (harg10 : arg10.IsWhole) (arg11 : Memref sig .tc .vmem S56x1024 .f32) (harg11 : arg11.IsWhole) (hc0 : ¬cond0_0 i) (x0 : Vec Ideal S1x40x512 .f32) (x1 : Vec Ideal S1x56x512 .f32) (x2 : Vec Ideal S512x1024 .f32) (x3 : Vec Ideal S1x1024 .f32) (x4 : Vec Ideal S512x1024 .f32) (x5 : Vec Ideal S1x1024 .f32) (x6 : Vec Ideal S1024x1024 .bf16) (x7 : Vec Ideal S1x1024 .f32) (xs0 : Vec Ideal S56x1024 .f32) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 x7 xs0
      = blockOut (k0_pay3 x6) (k0_pay4 x7) (k0_pay5 x3) xs0 (shapeCast S512x1024 x2 shapeCasts_S512x1024_S512x1024) x0 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  funext y
  refine View.canon_apply_of_pieces (blockOut (k0_pay3 x6) (k0_pay4 x7) (k0_pay5 x3) xs0 (shapeCast S512x1024 x2 shapeCasts_S512x1024_S512x1024) x0) _ ?_ y
    (cover0_B_8 c i arg2 harg2 arg3 harg3 arg4 harg4 arg5 harg5 arg6 harg6 arg7 harg7 arg8 harg8 arg9 harg9 arg10 harg10 arg11 harg11 hc0 x0 x1 x2 x3 x4 x5 x6 x7 xs0 y)
  unfold kernelRun0_B
  dsimp only
  sl_unfold_words
  simp only [View.readAt_eq_ld, harg2.read_unread, harg3.read_unread, harg4.read_unread, harg5.read_unread, harg6.read_unread, harg7.read_unread, harg8.read_unread, harg9.read_unread, harg11.read_unread, View.ld_unit_zero (S := S1024x1024) hz2, View.ld_unit_zero (S := S1x1024) hz2, View.ld_unit_zero (S := S512x1024) hz2, View.ld_unit_zero (S := S56x1024) hz2, View.ld_unit_zero (S := S1x56x512) hz3, pay12_eq, pay11_eq, pay10_eq, pay8_eq, pay13_eq, pay14_eq]
  intro p hp
  simp only [List.mem_cons, List.mem_singleton, List.not_mem_nil, or_false] at hp
  rcases hp with rfl | rfl | rfl | rfl | rfl
  · intro x; exact piece_apply 32 (by decide) (by decide) (k0_pay3 x6) (k0_pay4 x7) (k0_pay5 x3) xs0 (shapeCast S512x1024 x2 shapeCasts_S512x1024_S512x1024) x0 x
  · intro x; exact piece_apply 24 (by decide) (by decide) (k0_pay3 x6) (k0_pay4 x7) (k0_pay5 x3) xs0 (shapeCast S512x1024 x2 shapeCasts_S512x1024_S512x1024) x0 x
  · intro x; exact piece_apply 16 (by decide) (by decide) (k0_pay3 x6) (k0_pay4 x7) (k0_pay5 x3) xs0 (shapeCast S512x1024 x2 shapeCasts_S512x1024_S512x1024) x0 x
  · intro x; exact piece_apply 8 (by decide) (by decide) (k0_pay3 x6) (k0_pay4 x7) (k0_pay5 x3) xs0 (shapeCast S512x1024 x2 shapeCasts_S512x1024_S512x1024) x0 x
  · intro x; exact piece_apply 0 (by decide) (by decide) (k0_pay3 x6) (k0_pay4 x7) (k0_pay5 x3) xs0 (shapeCast S512x1024 x2 shapeCasts_S512x1024_S512x1024) x0 x

end Cert.KernelIdeal.JoinBlock

end
-- ==== Proof.JoinHost.lean ====
/-
  The arrays the kernel's region finds, as functions of the eight arguments.

  Before the region the program pads the decoder array along its position axis from 50 to 56 rows with zeros,
  transposes the three weight matrices (the output weights also change float format, which changes nothing over the
  extended reals), and casts the three bias vectors to one-row matrices. Each of these arrays read at an index is one
  entry of an argument: a transposed matrix at `(k, j)` is the matrix at `(j, k)`, a bias row at `(0, j)` is the bias
  at `j`, and the padded decoder array at a position below 50 is the decoder array there.
-/
import proofs.«179519_j66511863545982_2_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

noncomputable section

namespace Cert.KernelIdeal.JoinHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays as the operations' terms -/

theorem V_v1 (c : Dev nD) : (V m c main_v1 : S512x1024.Idx → EReal)
    = transpose S512x1024 [1, 0] (m ((c : Thread nD τ).loc main_arg2)) transposes_S1024x512_S512x1024_1_0 := by
  dsimp only [Gen.V]
  simp only [hostOps0, hostOps0_1, hostOps0_2, List.flatten_cons, List.flatten_nil, List.append_nil, List.cons_append, List.nil_append]
  after_results
  try rfl

theorem V_v2 (c : Dev nD) : (V m c main_v2 : S512x1024.Idx → EReal)
    = transpose S512x1024 [1, 0] (m ((c : Thread nD τ).loc main_arg4)) transposes_S1024x512_S512x1024_1_0 := by
  dsimp only [Gen.V]
  simp only [hostOps0, hostOps0_1, hostOps0_2, List.flatten_cons, List.flatten_nil, List.append_nil, List.cons_append, List.nil_append]
  after_results
  try rfl

theorem V_v4 (c : Dev nD) : (V m c main_v4 : S1024x1024.Idx → EReal)
    = truncf (F := Ideal) .bf16 (transpose S1024x1024 [1, 0] (m ((c : Thread nD τ).loc main_arg6) : FVec Ideal S1024x1024 .f32) transposes_S1024x1024_S1024x1024_1_0) bitsLt_bf16_f32 := by
  dsimp only [Gen.V]
  simp only [hostOps0, hostOps0_1, hostOps0_2, List.flatten_cons, List.flatten_nil, List.append_nil, List.cons_append, List.nil_append]
  after_results
  try rfl

theorem V_v5 (c : Dev nD) : (V m c main_v5 : S1x1024.Idx → EReal)
    = shapeCast S1x1024 (m ((c : Thread nD τ).loc main_arg3)) shapeCasts_S1024_S1x1024 := by
  dsimp only [Gen.V]
  simp only [hostOps0, hostOps0_1, hostOps0_2, List.flatten_cons, List.flatten_nil, List.append_nil, List.cons_append, List.nil_append]
  after_results
  try rfl

theorem V_v6 (c : Dev nD) : (V m c main_v6 : S1x1024.Idx → EReal)
    = shapeCast S1x1024 (m ((c : Thread nD τ).loc main_arg5)) shapeCasts_S1024_S1x1024 := by
  dsimp only [Gen.V]
  simp only [hostOps0, hostOps0_1, hostOps0_2, List.flatten_cons, List.flatten_nil, List.append_nil, List.cons_append, List.nil_append]
  after_results
  try rfl

theorem V_v7 (c : Dev nD) : (V m c main_v7 : S1x1024.Idx → EReal)
    = shapeCast S1x1024 (m ((c : Thread nD τ).loc main_arg7)) shapeCasts_S1024_S1x1024 := by
  dsimp only [Gen.V]
  simp only [hostOps0, hostOps0_1, hostOps0_2, List.flatten_cons, List.flatten_nil, List.append_nil, List.cons_append, List.nil_append]
  after_results
  try rfl

theorem V_v0 (c : Dev nD) : (V m c main_v0 : S8x56x512.Idx → EReal)
    = pad S8x56x512 ![0, 0, 0] ![0, 6, 0] ![0, 0, 0] (m ((c : Thread nD τ).loc main_arg1))
        (sitofp (F := Ideal) .f32 (constantI S_ 32 0#32)) pads_S8x50x512_S8x56x512_000_060_000 h_S_ := by
  dsimp only [Gen.V]
  simp only [hostOps0, hostOps0_1, hostOps0_2, List.flatten_cons, List.flatten_nil, List.append_nil, List.cons_append, List.nil_append]
  after_results
  try rfl

/-! ## … read at an index -/

theorem V_v1_apply (c : Dev nD) (d : Fin 512) (j : Fin 1024) :
    (V m c main_v1 : S512x1024.Idx → EReal) (ix2 d j) = (m ((c : Thread nD τ).loc main_arg2)) (ix2 j d) := by
  rw [V_v1]; exact transpose_ix2_apply _ _ d j

theorem V_v2_apply (c : Dev nD) (d : Fin 512) (j : Fin 1024) :
    (V m c main_v2 : S512x1024.Idx → EReal) (ix2 d j) = (m ((c : Thread nD τ).loc main_arg4)) (ix2 j d) := by
  rw [V_v2]; exact transpose_ix2_apply _ _ d j

theorem V_v4_apply (c : Dev nD) (j v : Fin 1024) :
    (V m c main_v4 : S1024x1024.Idx → EReal) (ix2 j v) = (m ((c : Thread nD τ).loc main_arg6)) (ix2 v j) := by
  rw [V_v4]
  show transpose S1024x1024 [1, 0] _ transposes_S1024x1024_S1024x1024_1_0 (ix2 j v) = _
  exact transpose_ix2_apply _ _ j v

theorem V_v5_apply (c : Dev nD) (z : Fin 1) (j : Fin 1024) :
    (V m c main_v5 : S1x1024.Idx → EReal) (ix2 z j) = (m ((c : Thread nD τ).loc main_arg3)) (ix1 j) := by
  rw [V_v5]; exact shapeCast_a_1a_apply _ _ z j

theorem V_v6_apply (c : Dev nD) (z : Fin 1) (j : Fin 1024) :
    (V m c main_v6 : S1x1024.Idx → EReal) (ix2 z j) = (m ((c : Thread nD τ).loc main_arg5)) (ix1 j) := by
  rw [V_v6]; exact shapeCast_a_1a_apply _ _ z j

theorem V_v7_apply (c : Dev nD) (z : Fin 1) (j : Fin 1024) :
    (V m c main_v7 : S1x1024.Idx → EReal) (ix2 z j) = (m ((c : Thread nD τ).loc main_arg7)) (ix1 j) := by
  rw [V_v7]; exact shapeCast_a_1a_apply _ _ z j

/-- Below position 50 the padded decoder array is the decoder array. -/
theorem V_v0_apply (c : Dev nD) (b : Fin 8) (u : Fin 50) (d : Fin 512) :
    (V m c main_v0 : S8x56x512.Idx → EReal) (ix3 b (⟨u.val, by have := u.isLt; omega⟩ : Fin 56) d) = (m ((c : Thread nD τ).loc main_arg1)) (ix3 b u d) := by
  rw [V_v0]
  refine pad_apply_of_inside ![0, 0, 0] ![0, 6, 0] ![0, 0, 0] _ _ pads_S8x50x512_S8x56x512_000_060_000 h_S_ _ (ix3 b u d) (fun a => ?_)
  match a with
  | ⟨0, _⟩ => show b.val = 0 + b.val * (0 + 1); omega
  | ⟨1, _⟩ => show u.val = 0 + u.val * (0 + 1); omega
  | ⟨2, _⟩ => show d.val = 0 + d.val * (0 + 1); omega

theorem V_arg0_apply (c : Dev nD) (i : S8x200x512.Idx) :
    (V m c main_arg0 : S8x200x512.Idx → EReal) i = (m ((c : Thread nD τ).loc main_arg0)) i := by
  rw [V_main_arg0]

end Cert.KernelIdeal.JoinHost

end
-- ==== Proof.JoinPoints.lean ====
/-
  From the grid's points to the result array.

  The grid has 8 × 5 points; point `t` is tile `t mod 5` (forty frames) of batch row `t / 5`. The carried scratch holds,
  after every point, the projected decoder rows of the point's batch row: the first tile computes them and the other
  four keep them (an induction over the points). So every point's output block is the block function over the right
  decoder rows, and read through the block's place in the result array it is the network's output there. The forty
  blocks tile the array, so the array ends holding the network's output everywhere.
-/
import proofs.«179519_j66511863545982_2_alg».proof.Proof.Gen.KernelIdeal.Value
import proofs.«179519_j66511863545982_2_alg».proof.Proof.JoinBlock
import proofs.«179519_j66511863545982_2_alg».proof.Proof.JoinHost
import Idealize.ShloMosaic.Lib.Pipeline.Value

noncomputable section

namespace Cert.KernelIdeal.JoinPoints

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.JoinChunk Cert.KernelIdeal.JoinBlock Cert.KernelIdeal.JoinHost

variable (m : (ℓ : Loc nD τ sig) → Buf (Elt Ideal) ℓ) (ρ : Dev nD → PrngReg)

/-! ## The projected decoder rows at an index -/

/-- The decoder projection's stored value at `(u, j)`: row `u` of the padded block against column `j` of the transposed
    weights, plus the bias. -/
theorem pay2_apply (x1 : Vec Ideal S1x56x512 .f32) (x4 : Vec Ideal S512x1024 .f32) (x5 : Vec Ideal S1x1024 .f32)
    (u : Fin 56) (j : Fin 1024) :
    k0_pay2 x1 x4 x5 (ix2 u j)
      = JoinSpec.proj (fun d : Fin 512 => x1 (ix3 (0 : Fin 1) u d)) (fun d : Fin 512 => x4 (ix2 d j)) (x5 (ix2 (0 : Fin 1) j)) := by
  unfold k0_pay2 JoinSpec.proj
  simp only [shapeCast_self]
  rw [addf_apply, JoinDots.decDot_apply, broadcastTo_1b_ab_apply]
  simp only [shapeCast_1ab_ab_apply]

/-! ## The grid -/

theorem lt40 (t : Fin cfg0.N) : t.val < 40 := lt_of_lt_of_eq t.isLt (show cfg0.N = 40 from N_0)

/-- The batch row of a point, and the frame of the whole array that row `s` of its block is. -/
abbrev rowOf (t : Fin cfg0.N) : Fin 8 := ⟨t.val / 5, by have := lt40 t; omega⟩
abbrev frameOf (t : Fin cfg0.N) (s : Fin 40) : Fin 200 := ⟨40 * (t.val % 5) + s.val, by have := s.isLt; omega⟩

theorem idxW0 : ∀ t : Fin cfg0.N, win0_0.index t (0 : Fin 3) = t.val / 5 ∧ win0_0.index t (1 : Fin 3) = t.val % 5
    ∧ win0_0.index t (2 : Fin 3) = 0 :=
  (by decide +kernel : ∀ t : Fin grid0.N, _)
theorem idxW1 : ∀ t : Fin cfg0.N, win0_1.index t (0 : Fin 3) = t.val / 5 ∧ win0_1.index t (1 : Fin 3) = 0
    ∧ win0_1.index t (2 : Fin 3) = 0 :=
  (by decide +kernel : ∀ t : Fin grid0.N, _)
theorem idxW8 : ∀ t : Fin cfg0.N, win0_8.index t (0 : Fin 4) = t.val / 5 ∧ win0_8.index t (1 : Fin 4) = t.val % 5
    ∧ win0_8.index t (2 : Fin 4) = 0 ∧ win0_8.index t (3 : Fin 4) = 0 :=
  (by decide +kernel : ∀ t : Fin grid0.N, _)

/-- Row `s` of the encoder block of point `t` is frame `40 (t mod 5) + s` of batch row `t / 5`. -/
theorem iblk0_apply (c : Dev nD) (t : Fin cfg0.N) (s : Fin 40) (d : Fin 512) :
    (iblk m c 0 t : S1x40x512.Idx → EReal) (ix3 (0 : Fin 1) s d) = (m ((c : Thread nD τ).loc main_arg0)) (ix3 (rowOf t) (frameOf t s) d) := by
  obtain ⟨e0, e1, e2⟩ := idxW0 t
  refine Eq.trans ?_ (V_arg0_apply m c (ix3 (rowOf t) (frameOf t s) d))
  show V m c main_arg0 (((cfg0.win 0).blk t).view.emb (ix3 (0 : Fin 1) s d)) = V m c main_arg0 (ix3 (rowOf t) (frameOf t s) d)
  refine congrArg (V m c main_arg0) (funext fun a => Fin.ext ?_)
  match a with
  | ⟨0, _⟩ => show win0_0.index t (0 : Fin 3) * 1 + 1 * 0 = t.val / 5; omega
  | ⟨1, _⟩ => show win0_0.index t (1 : Fin 3) * 40 + 1 * s.val = 40 * (t.val % 5) + s.val; omega
  | ⟨2, _⟩ => show win0_0.index t (2 : Fin 3) * 512 + 1 * d.val = d.val; omega

/-- The padded decoder block of point `t` is that of batch row `t / 5`. -/
theorem iblk1_apply (c : Dev nD) (t : Fin cfg0.N) (u : Fin 56) (d : Fin 512) :
    (iblk m c 1 t : S1x56x512.Idx → EReal) (ix3 (0 : Fin 1) u d) = (V m c main_v0 : S8x56x512.Idx → EReal) (ix3 (rowOf t) u d) := by
  obtain ⟨e0, e1, e2⟩ := idxW1 t
  show V m c main_v0 (((cfg0.win 1).blk t).view.emb (ix3 (0 : Fin 1) u d)) = V m c main_v0 (ix3 (rowOf t) u d)
  refine congrArg (V m c main_v0) (funext fun a => Fin.ext ?_)
  match a with
  | ⟨0, _⟩ => show win0_1.index t (0 : Fin 3) * 1 + 1 * 0 = t.val / 5; omega
  | ⟨1, _⟩ => show win0_1.index t (1 : Fin 3) * 56 + 1 * u.val = u.val; omega
  | ⟨2, _⟩ => show win0_1.index t (2 : Fin 3) * 512 + 1 * d.val = d.val; omega

theorem idxW2 : ∀ t : Fin cfg0.N, win0_2.index t (0 : Fin 2) = 0 ∧ win0_2.index t (1 : Fin 2) = 0 :=
  (by decide +kernel : ∀ t : Fin grid0.N, _)
/-- Window 2's one block is its whole array. -/
theorem iblk2_eq (c : Dev nD) (t : Fin cfg0.N) : (iblk m c 2 t : S512x1024.Idx → EReal) = (V m c main_v1 : S512x1024.Idx → EReal) := by
  funext j
  show V m c main_v1 (((cfg0.win 2).blk t).view.emb j) = V m c main_v1 j
  refine congrArg (V m c main_v1) (funext fun a => Fin.ext ?_)
  match a with
    | ⟨0, _⟩ => show win0_2.index t (0 : Fin 2) * 512 + 1 * (j 0).val = (j 0).val; rw [(idxW2 t).1]; omega
    | ⟨1, _⟩ => show win0_2.index t (1 : Fin 2) * 1024 + 1 * (j 1).val = (j 1).val; rw [(idxW2 t).2]; omega

theorem idxW3 : ∀ t : Fin cfg0.N, win0_3.index t (0 : Fin 2) = 0 ∧ win0_3.index t (1 : Fin 2) = 0 :=
  (by decide +kernel : ∀ t : Fin grid0.N, _)
/-- Window 3's one block is its whole array. -/
theorem iblk3_eq (c : Dev nD) (t : Fin cfg0.N) : (iblk m c 3 t : S1x1024.Idx → EReal) = (V m c main_v5 : S1x1024.Idx → EReal) := by
  funext j
  show V m c main_v5 (((cfg0.win 3).blk t).view.emb j) = V m c main_v5 j
  refine congrArg (V m c main_v5) (funext fun a => Fin.ext ?_)
  match a with
    | ⟨0, _⟩ => show win0_3.index t (0 : Fin 2) * 1 + 1 * (j 0).val = (j 0).val; rw [(idxW3 t).1]; omega
    | ⟨1, _⟩ => show win0_3.index t (1 : Fin 2) * 1024 + 1 * (j 1).val = (j 1).val; rw [(idxW3 t).2]; omega

theorem idxW4 : ∀ t : Fin cfg0.N, win0_4.index t (0 : Fin 2) = 0 ∧ win0_4.index t (1 : Fin 2) = 0 :=
  (by decide +kernel : ∀ t : Fin grid0.N, _)
/-- Window 4's one block is its whole array. -/
theorem iblk4_eq (c : Dev nD) (t : Fin cfg0.N) : (iblk m c 4 t : S512x1024.Idx → EReal) = (V m c main_v2 : S512x1024.Idx → EReal) := by
  funext j
  show V m c main_v2 (((cfg0.win 4).blk t).view.emb j) = V m c main_v2 j
  refine congrArg (V m c main_v2) (funext fun a => Fin.ext ?_)
  match a with
    | ⟨0, _⟩ => show win0_4.index t (0 : Fin 2) * 512 + 1 * (j 0).val = (j 0).val; rw [(idxW4 t).1]; omega
    | ⟨1, _⟩ => show win0_4.index t (1 : Fin 2) * 1024 + 1 * (j 1).val = (j 1).val; rw [(idxW4 t).2]; omega

theorem idxW5 : ∀ t : Fin cfg0.N, win0_5.index t (0 : Fin 2) = 0 ∧ win0_5.index t (1 : Fin 2) = 0 :=
  (by decide +kernel : ∀ t : Fin grid0.N, _)
/-- Window 5's one block is its whole array. -/
theorem iblk5_eq (c : Dev nD) (t : Fin cfg0.N) : (iblk m c 5 t : S1x1024.Idx → EReal) = (V m c main_v6 : S1x1024.Idx → EReal) := by
  funext j
  show V m c main_v6 (((cfg0.win 5).blk t).view.emb j) = V m c main_v6 j
  refine congrArg (V m c main_v6) (funext fun a => Fin.ext ?_)
  match a with
    | ⟨0, _⟩ => show win0_5.index t (0 : Fin 2) * 1 + 1 * (j 0).val = (j 0).val; rw [(idxW5 t).1]; omega
    | ⟨1, _⟩ => show win0_5.index t (1 : Fin 2) * 1024 + 1 * (j 1).val = (j 1).val; rw [(idxW5 t).2]; omega

theorem idxW6 : ∀ t : Fin cfg0.N, win0_6.index t (0 : Fin 2) = 0 ∧ win0_6.index t (1 : Fin 2) = 0 :=
  (by decide +kernel : ∀ t : Fin grid0.N, _)
/-- Window 6's one block is its whole array. -/
theorem iblk6_eq (c : Dev nD) (t : Fin cfg0.N) : (iblk m c 6 t : S1024x1024.Idx → EReal) = (V m c main_v4 : S1024x1024.Idx → EReal) := by
  funext j
  show V m c main_v4 (((cfg0.win 6).blk t).view.emb j) = V m c main_v4 j
  refine congrArg (V m c main_v4) (funext fun a => Fin.ext ?_)
  match a with
    | ⟨0, _⟩ => show win0_6.index t (0 : Fin 2) * 1024 + 1 * (j 0).val = (j 0).val; rw [(idxW6 t).1]; omega
    | ⟨1, _⟩ => show win0_6.index t (1 : Fin 2) * 1024 + 1 * (j 1).val = (j 1).val; rw [(idxW6 t).2]; omega

theorem idxW7 : ∀ t : Fin cfg0.N, win0_7.index t (0 : Fin 2) = 0 ∧ win0_7.index t (1 : Fin 2) = 0 :=
  (by decide +kernel : ∀ t : Fin grid0.N, _)
/-- Window 7's one block is its whole array. -/
theorem iblk7_eq (c : Dev nD) (t : Fin cfg0.N) : (iblk m c 7 t : S1x1024.Idx → EReal) = (V m c main_v7 : S1x1024.Idx → EReal) := by
  funext j
  show V m c main_v7 (((cfg0.win 7).blk t).view.emb j) = V m c main_v7 j
  refine congrArg (V m c main_v7) (funext fun a => Fin.ext ?_)
  match a with
    | ⟨0, _⟩ => show win0_7.index t (0 : Fin 2) * 1 + 1 * (j 0).val = (j 0).val; rw [(idxW7 t).1]; omega
    | ⟨1, _⟩ => show win0_7.index t (1 : Fin 2) * 1024 + 1 * (j 1).val = (j 1).val; rw [(idxW7 t).2]; omega

/-! ## The carried scratch and the output block, point by point -/

/-- The decoder positions of batch row `b` (and six padding rows) projected into the joint space. -/
def decRows (c : Dev nD) (b : Fin 8) : Vec Ideal S56x1024 .f32 := fun y =>
  JoinSpec.proj (fun d : Fin 512 => (V m c main_v0 : S8x56x512.Idx → EReal) (ix3 b (⟨(y 0).val, (y 0).isLt⟩ : Fin 56) d))
    (fun d : Fin 512 => (V m c main_v2 : S512x1024.Idx → EReal) (ix2 d (⟨(y 1).val, (y 1).isLt⟩ : Fin 1024)))
    ((V m c main_v6 : S1x1024.Idx → EReal) (ix2 (0 : Fin 1) (⟨(y 1).val, (y 1).isLt⟩ : Fin 1024)))

/-- What the first tile of a batch row stores in the scratch is that row's projected decoder rows. -/
theorem pay2_blocks (c : Dev nD) (t : Fin cfg0.N) :
    k0_pay2 (iblk m c 1 t) (iblk m c 4 t) (iblk m c 5 t) = decRows m c (rowOf t) := by
  funext y
  obtain ⟨u, j, rfl⟩ : ∃ (u : Fin 56) (j : Fin 1024), y = ix2 u j := ⟨y 0, y 1, eq_ix2 y⟩
  rw [pay2_apply]
  unfold decRows
  have h1 : ∀ d : Fin 512, (iblk m c 1 t : S1x56x512.Idx → EReal) (ix3 (0 : Fin 1) u d) = (V m c main_v0 : S8x56x512.Idx → EReal) (ix3 (rowOf t) u d) :=
    fun d => iblk1_apply m c t u d
  simp only [h1]
  rw [iblk4_eq, iblk5_eq]

/-- At the first tile of a batch row: the block function over the freshly projected decoder rows, which go to the scratch. -/
theorem point_A (c : Dev nD) (t : Fin cfg0.N) (h0 : t.val % 5 = 0) :
    outsAt0 m c t.val t.isLt
      = (blockOut (k0_pay3 (iblk m c 6 t)) (k0_pay4 (iblk m c 7 t)) (k0_pay5 (iblk m c 3 t))
            (k0_pay2 (iblk m c 1 t) (iblk m c 4 t) (iblk m c 5 t))
            (shapeCast S512x1024 (iblk m c 2 t) shapeCasts_S512x1024_S512x1024) (iblk m c 0 t),
          k0_pay2 (iblk m c 1 t) (iblk m c 4 t) (iblk m c 5 t)) := by
  rw [outsAt0_A m c t h0]
  exact congrArg₂ Prod.mk
    (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t))
    (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t))

/-- At any other tile: the block function over what the point before left in the scratch, which stays. -/
theorem point_B (c : Dev nD) (t : Fin cfg0.N) (h0 : ¬t.val % 5 = 0) :
    outsAt0 m c t.val t.isLt
      = (blockOut (k0_pay3 (iblk m c 6 t)) (k0_pay4 (iblk m c 7 t)) (k0_pay5 (iblk m c 3 t))
            (outsAt0 m c (t.val - 1) (Nat.lt_of_le_of_lt (Nat.sub_le _ _) t.isLt)).2
            (shapeCast S512x1024 (iblk m c 2 t) shapeCasts_S512x1024_S512x1024) (iblk m c 0 t),
          (outsAt0 m c (t.val - 1) (Nat.lt_of_le_of_lt (Nat.sub_le _ _) t.isLt)).2) := by
  rw [outsAt0_B m c t h0]
  exact congrArg₂ Prod.mk
    (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2)
    rfl

/-- What every point leaves: the block function over its batch row's projected decoder rows, and those rows in the scratch. -/
def full (c : Dev nD) (t : Fin cfg0.N) : Vec Ideal S1x40x50x1024 .f32 × Vec Ideal S56x1024 .f32 :=
  (blockOut (k0_pay3 (iblk m c 6 t)) (k0_pay4 (iblk m c 7 t)) (k0_pay5 (iblk m c 3 t)) (decRows m c (rowOf t))
      (shapeCast S512x1024 (iblk m c 2 t) shapeCasts_S512x1024_S512x1024) (iblk m c 0 t),
    decRows m c (rowOf t))

/-- THE INVARIANT, by induction on the point: a first tile computes its row's decoder projection, any other tile
    finds the one its predecessor left, and the predecessor is in the same batch row. -/
theorem outs_eq (c : Dev nD) : ∀ (n : ℕ) (h : n < cfg0.N), outsAt0 m c n h = full m c ⟨n, h⟩
  | 0, h => (point_A m c ⟨0, h⟩ rfl).trans (by rw [pay2_blocks]; rfl)
  | n + 1, h => by
    by_cases h0 : (n + 1) % 5 = 0
    · exact (point_A m c ⟨n + 1, h⟩ h0).trans (by rw [pay2_blocks]; rfl)
    · refine (point_B m c ⟨n + 1, h⟩ h0).trans ?_
      have ih := outs_eq c n (Nat.lt_of_succ_lt h)
      have e : (outsAt0 m c ((⟨n + 1, h⟩ : Fin cfg0.N).val - 1)
          (Nat.lt_of_le_of_lt (Nat.sub_le _ _) (⟨n + 1, h⟩ : Fin cfg0.N).isLt)).2 = decRows m c (rowOf ⟨n + 1, h⟩) := by
        show (outsAt0 m c n (Nat.lt_of_succ_lt h)).2 = _
        rw [ih]
        show decRows m c (rowOf ⟨n, Nat.lt_of_succ_lt h⟩) = _
        exact congrArg (decRows m c) (Fin.ext (by show n / 5 = (n + 1) / 5; omega))
      rw [e]
      rfl

end Cert.KernelIdeal.JoinPoints

end
-- ==== Proof.JoinArray.lean ====
/-
  The result array after the run is the network's output of the eight arguments.

  Every point's output block, read at row `s`, decoder position `u` and vocabulary entry `v`, is the log-softmax at `v`
  of the logits of frame `40 (t mod 5) + s` of batch row `t / 5` against position `u` — the staged arrays read back
  to the arguments (a transposed weight at `(k, j)` is the weight at `(j, k)`, a bias row is the bias, the padded
  decoder rows below 50 are the decoder's). That is the network's output at the block's place in the array. The blocks
  of the forty points tile `[8, 200, 50, 1024]`: index `(b, f, u, v)` is in the block of point `5 b + f / 40`.
-/
import proofs.«179519_j66511863545982_2_alg».proof.Proof.JoinPoints

noncomputable section

namespace Cert.KernelIdeal.JoinArray

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.JoinChunk Cert.KernelIdeal.JoinBlock Cert.KernelIdeal.JoinHost
open Cert.KernelIdeal.JoinPoints

variable (m : (ℓ : Loc nD τ sig) → Buf (Elt Ideal) ℓ) (ρ : Dev nD → PrngReg)

/-- The network's output of the arguments as launched, as contents of the result array. -/
def result (c : Dev nD) : Buf (Elt Ideal) ((c : Thread nD τ).loc main_v8) :=
  JoinSpec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## The staged blocks read back to the arguments -/

theorem wenc_apply (c : Dev nD) (t : Fin cfg0.N) (d : Fin 512) (j : Fin 1024) :
    shapeCast S512x1024 (iblk m c 2 t) shapeCasts_S512x1024_S512x1024 (ix2 d j) = (m ((c : Thread nD τ).loc main_arg2)) (ix2 j d) := by
  exact (congrFun (shapeCast_self (iblk m c 2 t : S512x1024.Idx → EReal) shapeCasts_S512x1024_S512x1024) (ix2 d j)).trans
    ((congrFun (iblk2_eq m c t) (ix2 d j)).trans (V_v1_apply m c d j))

theorem benc_apply (c : Dev nD) (t : Fin cfg0.N) (z : Fin 1) (j : Fin 1024) :
    k0_pay5 (iblk m c 3 t) (ix2 z j) = (m ((c : Thread nD τ).loc main_arg3)) (ix1 j) := by
  exact (congrFun (shapeCast_self (iblk m c 3 t : S1x1024.Idx → EReal) shapeCasts_S1x1024_S1x1024) (ix2 z j)).trans
    ((congrFun (iblk3_eq m c t) (ix2 z j)).trans (V_v5_apply m c z j))

theorem wfc_apply (c : Dev nD) (t : Fin cfg0.N) (j v : Fin 1024) :
    k0_pay3 (iblk m c 6 t) (ix2 j v) = (m ((c : Thread nD τ).loc main_arg6)) (ix2 v j) := by
  exact (congrFun (shapeCast_self (iblk m c 6 t : S1024x1024.Idx → EReal) shapeCasts_S1024x1024_S1024x1024) (ix2 j v)).trans
    ((congrFun (iblk6_eq m c t) (ix2 j v)).trans (V_v4_apply m c j v))

theorem bfc_apply (c : Dev nD) (t : Fin cfg0.N) (z : Fin 1) (v : Fin 1024) :
    k0_pay4 (iblk m c 7 t) (ix2 z v) = (m ((c : Thread nD τ).loc main_arg7)) (ix1 v) := by
  exact (congrFun (shapeCast_self (iblk m c 7 t : S1x1024.Idx → EReal) shapeCasts_S1x1024_S1x1024) (ix2 z v)).trans
    ((congrFun (iblk7_eq m c t) (ix2 z v)).trans (V_v7_apply m c z v))

/-- Below position 50 the projected decoder rows are the decoder's own positions projected. -/
theorem decRows_apply (c : Dev nD) (b : Fin 8) (u : Fin 50) (j : Fin 1024) :
    decRows m c b (ix2 (u56 u) j)
      = JoinSpec.proj (fun d : Fin 512 => (m ((c : Thread nD τ).loc main_arg1)) (ix3 b u d)) (fun d : Fin 512 => (m ((c : Thread nD τ).loc main_arg4)) (ix2 j d))
          ((m ((c : Thread nD τ).loc main_arg5)) (ix1 j)) := by
  unfold decRows
  show JoinSpec.proj (fun d : Fin 512 => (V m c main_v0 : S8x56x512.Idx → EReal) (ix3 b (⟨u.val, by have := u.isLt; omega⟩ : Fin 56) d))
    (fun d : Fin 512 => (V m c main_v2 : S512x1024.Idx → EReal) (ix2 d j))
    ((V m c main_v6 : S1x1024.Idx → EReal) (ix2 (0 : Fin 1) j)) = _
  unfold JoinSpec.proj
  exact congrArg₂ (· + ·)
    (Finset.sum_congr rfl fun d _ => congrArg₂ (· * ·) (V_v0_apply m c b u d) (V_v2_apply m c d j))
    (V_v6_apply m c (0 : Fin 1) j)

/-! ## What a point writes back -/

/-- The block function is the network's output wherever its six ingredients are the network's: the frames, the two weight
    matrices transposed, the two bias rows, and the projected decoder rows. -/
theorem blockOut_congr (v4 : FVec Ideal S1024x1024 .bf16) (v6 v8 : FVec Ideal S1x1024 .f32) (dp : Vec Ideal S56x1024 .f32)
    (w : FVec Ideal S512x1024 .f32) (x0 : Vec Ideal S1x40x512 .f32) (y : S1x40x50x1024.Idx) (b : Fin 8) (f : Fin 200)
    (enc : (⟨3, ![8, 200, 512]⟩ : Shape).Idx → EReal) (dec : (⟨3, ![8, 50, 512]⟩ : Shape).Idx → EReal)
    (Wenc : (⟨2, ![1024, 512]⟩ : Shape).Idx → EReal) (benc : (⟨1, ![1024]⟩ : Shape).Idx → EReal)
    (Wdec : (⟨2, ![1024, 512]⟩ : Shape).Idx → EReal) (bdec : (⟨1, ![1024]⟩ : Shape).Idx → EReal)
    (Wfc : (⟨2, ![1024, 1024]⟩ : Shape).Idx → EReal) (bfc : (⟨1, ![1024]⟩ : Shape).Idx → EReal)
    (hx : ∀ d : Fin 512, x0 (ix3 (0 : Fin 1) (tOf y) d) = enc (ix3 b f d))
    (hw : ∀ (d : Fin 512) (j : Fin 1024), w (ix2 d j) = Wenc (ix2 j d))
    (hb : ∀ j : Fin 1024, v8 (ix2 (0 : Fin 1) j) = benc (ix1 j))
    (hd : ∀ j : Fin 1024, dp (ix2 (u56 (uOf y)) j)
      = JoinSpec.proj (fun d : Fin 512 => dec (ix3 b (uOf y) d)) (fun d : Fin 512 => Wdec (ix2 j d)) (bdec (ix1 j)))
    (hf : ∀ j v : Fin 1024, v4 (ix2 j v) = Wfc (ix2 v j))
    (hc : ∀ v : Fin 1024, v6 (ix2 (0 : Fin 1) v) = bfc (ix1 v)) :
    blockOut v4 v6 v8 dp w x0 y = JoinSpec.out enc dec Wenc benc Wdec bdec Wfc bfc b f (uOf y) (vOf y) := by
  unfold blockOut JoinSpec.out
  simp only [hx, hw, hb, hd, hf, hc]

/-- WHAT POINT `t` WRITES BACK is its block of the network's output. -/
theorem flushed_eq (c : Dev nD) (t : Fin cfg0.N) :
    (dats m 0 c).flushed 8 t = ((cfg0.win 8).blk t).view.read (Elt Ideal) (result m c) := by
  rw [Value.flushed8, outs_eq m c t.val t.isLt]
  obtain ⟨e0, e1, e2, e3⟩ := idxW8 t
  funext y
  have hy0 : (y 0).val < 1 := (y 0).isLt
  have hy1 : (y 1).val < 40 := (y 1).isLt
  have h0 : ((((cfg0.win 8).blk t).view.emb y) 0 : Fin 8) = rowOf t :=
    Fin.ext (by show win0_8.index t (0 : Fin 4) * 1 + 1 * (y 0).val = t.val / 5; omega)
  have h1 : ((((cfg0.win 8).blk t).view.emb y) 1 : Fin 200) = frameOf t (tOf y) :=
    Fin.ext (by show win0_8.index t (1 : Fin 4) * 40 + 1 * (y 1).val = 40 * (t.val % 5) + (y 1).val; omega)
  have h2 : ((((cfg0.win 8).blk t).view.emb y) 2 : Fin 50) = uOf y :=
    Fin.ext (by show win0_8.index t (2 : Fin 4) * 50 + 1 * (y 2).val = (y 2).val; omega)
  have h3 : ((((cfg0.win 8).blk t).view.emb y) 3 : Fin 1024) = vOf y :=
    Fin.ext (by show win0_8.index t (3 : Fin 4) * 1024 + 1 * (y 3).val = (y 3).val; omega)
  have hr : result m c (((cfg0.win 8).blk t).view.emb y)
      = JoinSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf t) (frameOf t (tOf y)) (uOf y) (vOf y) :=
    congr (congr (congr (congrArg (JoinSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) h0) h1) h2) h3
  show blockOut (k0_pay3 (iblk m c 6 t)) (k0_pay4 (iblk m c 7 t)) (k0_pay5 (iblk m c 3 t)) (decRows m c (rowOf t))
      (shapeCast S512x1024 (iblk m c 2 t) shapeCasts_S512x1024_S512x1024) (iblk m c 0 t) y
    = result m c (((cfg0.win 8).blk t).view.emb y)
  rw [hr]
  exact blockOut_congr _ _ _ _ _ _ y (rowOf t) (frameOf t (tOf y)) _ _ _ _ _ _ _ _
    (fun d => iblk0_apply m c t (tOf y) d) (wenc_apply m c t) (benc_apply m c t (0 : Fin 1))
    (fun j => decRows_apply m c (rowOf t) (uOf y) j) (wfc_apply m c t) (bfc_apply m c t (0 : Fin 1))

/-! ## The blocks tile the array -/

/-- An index of the array is in point `t`'s block iff each coordinate is in the block's range on its axis. -/
theorem mem_blk (t : Fin cfg0.N) (i : S8x200x50x1024.Idx) :
    i ∈ ((cfg0.win 8).blk t).view.set ↔ ∀ a : Fin 4, win0_8.index t a * S1x40x50x1024.size a ≤ (i a).val
      ∧ (i a).val < win0_8.index t a * S1x40x50x1024.size a + S1x40x50x1024.size a := by
  show i ∈ ((View.whole main_v8).slice (win0_8.rect t)).set ↔ _
  rw [View.set_slice_whole, Rect.mem_set_unit]
  exact Iff.rfl

/-- Index `(b, f, u, v)` is in the block of point `5 b + f / 40`. -/
theorem cover (i : S8x200x50x1024.Idx) :
    ∃ t : Fin cfg0.N, (cfg0.win 8).flush t = true ∧ i ∈ ((cfg0.win 8).blk t).view.set := by
  have h0 : (i 0).val < 8 := (i 0).isLt
  have h1 : (i 1).val < 200 := (i 1).isLt
  have h2 : (i 2).val < 50 := (i 2).isLt
  have h3 : (i 3).val < 1024 := (i 3).isLt
  have hN : cfg0.N = 40 := N_0
  have hn : (i 0).val * 5 + (i 1).val / 40 < cfg0.N := by rw [hN]; omega
  obtain ⟨e0, e1, e2, e3⟩ := idxW8 ⟨(i 0).val * 5 + (i 1).val / 40, hn⟩
  have e0' : win0_8.index ⟨(i 0).val * 5 + (i 1).val / 40, hn⟩ (0 : Fin 4) = ((i 0).val * 5 + (i 1).val / 40) / 5 := e0
  have e1' : win0_8.index ⟨(i 0).val * 5 + (i 1).val / 40, hn⟩ (1 : Fin 4) = ((i 0).val * 5 + (i 1).val / 40) % 5 := e1
  refine ⟨⟨(i 0).val * 5 + (i 1).val / 40, hn⟩, flush0_8 _, ?_⟩
  rw [mem_blk]
  intro a
  match a with
  | ⟨0, _⟩ =>
    show win0_8.index ⟨(i 0).val * 5 + (i 1).val / 40, hn⟩ (0 : Fin 4) * 1 ≤ (i 0).val
      ∧ (i 0).val < win0_8.index ⟨(i 0).val * 5 + (i 1).val / 40, hn⟩ (0 : Fin 4) * 1 + 1
    rw [e0']; omega
  | ⟨1, _⟩ =>
    show win0_8.index ⟨(i 0).val * 5 + (i 1).val / 40, hn⟩ (1 : Fin 4) * 40 ≤ (i 1).val
      ∧ (i 1).val < win0_8.index ⟨(i 0).val * 5 + (i 1).val / 40, hn⟩ (1 : Fin 4) * 40 + 40
    rw [e1']; omega
  | ⟨2, _⟩ =>
    show win0_8.index ⟨(i 0).val * 5 + (i 1).val / 40, hn⟩ (2 : Fin 4) * 50 ≤ (i 2).val
      ∧ (i 2).val < win0_8.index ⟨(i 0).val * 5 + (i 1).val / 40, hn⟩ (2 : Fin 4) * 50 + 50
    rw [e2]; omega
  | ⟨3, _⟩ =>
    show win0_8.index ⟨(i 0).val * 5 + (i 1).val / 40, hn⟩ (3 : Fin 4) * 1024 ≤ (i 3).val
      ∧ (i 3).val < win0_8.index ⟨(i 0).val * 5 + (i 1).val / 40, hn⟩ (3 : Fin 4) * 1024 + 1024
    rw [e3]; omega

/-! ## The array, and the run -/

/-- THE RESULT ARRAY after the run is the network's output. -/
theorem final (c : Dev nD) : (dats m 0 c).arrAt 8 cfg0.N = result m c :=
  (dats m 0 c).arrAt_eq_of_cover 8 (result m c) (fun t _ => flushed_eq m c t) cover

/-- The run, read: the result array at the network's output of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.JoinArray

end
-- ==== Proof.RefRun.lean ====
/-
  The run of the reference program, read back as one array-valued function of its eight arguments.

  The program is a straight line of 33 host operations on one device: the first 18 compute the logits
    v17 = tanh (bcast (enc · Wencᵀ + benc) + bcast (dec · Wdecᵀ + bdec)) · Wfcᵀ + bfc,
  and the last 15 are a log-softmax over the last axis, all of them reading v17 and nothing else of the first part:
    M = max (−∞, the fold of max over the last axis of v17 from −∞),   s = v17 − bcast M,
    v18 = s − bcast (log (bcast (0 + the sum over the last axis of exp s))).
  What the buffers hold after a list of operations is a fold over the list, and the fold of a concatenation is the
  fold of the second part from the fold of the first. So the result buffer after all 33 is the log-softmax half
  applied to what the logits' buffer holds after the first half — and v17, which occurs four times in v18's term,
  is carried through the second half as ONE unknown array rather than as its own fifteen-operation term.
  The arguments' buffers are written by no operation and keep their contents.
-/
import proofs.«179519_j66511863545982_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 18 operations: the two projections with their biases, their outer sum over (t, u), the tanh, the output
    product and its bias. They end at the logits `main_v17`. -/
abbrev opsA : List (HloOp τ sig (Elt F)) :=
  [ binary main_arg0 main_arg2 main_v0 ((fun l r => Host.dotGeneral dot_S8x200x512_S1024x512_S8x200x1024_2_1_01_0_n_n none l r) : (⟨S8x200x512, .f32⟩ : BufTy).Contents (Elt F) → (⟨S1024x512, .f32⟩ : BufTy).Contents (Elt F) → (⟨S8x200x1024, .f32⟩ : BufTy).Contents (Elt F)),
    unary main_arg3 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S8x200x1024 ![0, 1, 2] bcast_S1x1x1024_S8x200x1024_0_1_2 : (⟨S1x1x1024, .f32⟩ : BufTy).Contents (Elt F) → (⟨S8x200x1024, .f32⟩ : BufTy).Contents (Elt F)),
    binary main_v0 main_v2 main_v3 (addf : (⟨S8x200x1024, .f32⟩ : BufTy).Contents (Elt F) → (⟨S8x200x1024, .f32⟩ : BufTy).Contents (Elt F) → (⟨S8x200x1024, .f32⟩ : BufTy).Contents (Elt F)),
    binary main_arg1 main_arg4 main_v4 ((fun l r => Host.dotGeneral dot_S8x50x512_S1024x512_S8x50x1024_2_1_01_0_n_n none l r) : (⟨S8x50x512, .f32⟩ : BufTy).Contents (Elt F) → (⟨S1024x512, .f32⟩ : BufTy).Contents (Elt F) → (⟨S8x50x1024, .f32⟩ : BufTy).Contents (Elt F)),
    unary main_arg5 main_v5 (broadcastInDim S1x1x1024 ![2] bcast_S1024_S1x1x1024_2 : (⟨S1024, .f32⟩ : BufTy).Contents (Elt F) → (⟨S1x1x1024, .f32⟩ : BufTy).Contents (Elt F)),
    unary main_v5 main_v6 (broadcastInDim S8x50x1024 ![0, 1, 2] bcast_S1x1x1024_S8x50x1024_0_1_2 : (⟨S1x1x1024, .f32⟩ : BufTy).Contents (Elt F) → (⟨S8x50x1024, .f32⟩ : BufTy).Contents (Elt F)),
    binary main_v4 main_v6 main_v7 (addf : (⟨S8x50x1024, .f32⟩ : BufTy).Contents (Elt F) → (⟨S8x50x1024, .f32⟩ : BufTy).Contents (Elt F) → (⟨S8x50x1024, .f32⟩ : BufTy).Contents (Elt F)),
    unary main_v3 main_v8 (broadcastInDim S8x200x1x1024 ![0, 1, 3] bcast_S8x200x1024_S8x200x1x1024_0_1_3 : (⟨S8x200x1024, .f32⟩ : BufTy).Contents (Elt F) → (⟨S8x200x1x1024, .f32⟩ : BufTy).Contents (Elt F)),
    unary main_v7 main_v9 (broadcastInDim S8x1x50x1024 ![0, 2, 3] bcast_S8x50x1024_S8x1x50x1024_0_2_3 : (⟨S8x50x1024, .f32⟩ : BufTy).Contents (Elt F) → (⟨S8x1x50x1024, .f32⟩ : BufTy).Contents (Elt F)),
    unary main_v8 main_v10 (broadcastInDim S8x200x50x1024 ![0, 1, 2, 3] bcast_S8x200x1x1024_S8x200x50x1024_0_1_2_3 : (⟨S8x200x1x1024, .f32⟩ : BufTy).Contents (Elt F) → (⟨S8x200x50x1024, .f32⟩ : BufTy).Contents (Elt F)),
    unary main_v9 main_v11 (broadcastInDim S8x200x50x1024 ![0, 1, 2, 3] bcast_S8x1x50x1024_S8x200x50x1024_0_1_2_3 : (⟨S8x1x50x1024, .f32⟩ : BufTy).Contents (Elt F) → (⟨S8x200x50x1024, .f32⟩ : BufTy).Contents (Elt F)),
    binary main_v10 main_v11 main_v12 (addf : (⟨S8x200x50x1024, .f32⟩ : BufTy).Contents (Elt F) → (⟨S8x200x50x1024, .f32⟩ : BufTy).Contents (Elt F) → (⟨S8x200x50x1024, .f32⟩ : BufTy).Contents (Elt F)),
    unary main_v12 main_v13 (Host.tanh : (⟨S8x200x50x1024, .f32⟩ : BufTy).Contents (Elt F) → (⟨S8x200x50x1024, .f32⟩ : BufTy).Contents (Elt F)),
    binary main_v13 main_arg6 main_v14 ((fun l r => Host.dotGeneral dot_S8x200x50x1024_S1024x1024_S8x200x50x1024_3_1_012_0_n_n none l r) : (⟨S8x200x50x1024, .f32⟩ : BufTy).Contents (Elt F) → (⟨S1024x1024, .f32⟩ : BufTy).Contents (Elt F) → (⟨S8x200x50x1024, .f32⟩ : BufTy).Contents (Elt F)),
    unary main_arg7 main_v15 (broadcastInDim S1x1x1x1024 ![3] bcast_S1024_S1x1x1x1024_3 : (⟨S1024, .f32⟩ : BufTy).Contents (Elt F) → (⟨S1x1x1x1024, .f32⟩ : BufTy).Contents (Elt F)),
    unary main_v15 main_v16 (broadcastInDim S8x200x50x1024 ![0, 1, 2, 3] bcast_S1x1x1x1024_S8x200x50x1024_0_1_2_3 : (⟨S1x1x1x1024, .f32⟩ : BufTy).Contents (Elt F) → (⟨S8x200x50x1024, .f32⟩ : BufTy).Contents (Elt F)),
    binary main_v14 main_v16 main_v17 (addf : (⟨S8x200x50x1024, .f32⟩ : BufTy).Contents (Elt F) → (⟨S8x200x50x1024, .f32⟩ : BufTy).Contents (Elt F) → (⟨S8x200x50x1024, .f32⟩ : BufTy).Contents (Elt F)) ]

/-- The last 15 operations: the log-softmax of `main_v17` over its last axis, written to `main_v18`. -/
abbrev opsB : List (HloOp τ sig (Elt F)) :=
  [ TRef.nullary (TRef.of (T := ⟨S_, .f32⟩) main_call0_cst) (constant S_ .f32 0xFF800000#32),
    TRef.binary (TRef.of (T := ⟨S8x200x50x1024, .f32⟩) main_v17) (TRef.of (T := ⟨S_, .f32⟩) main_call0_cst) (TRef.of (T := ⟨S8x200x50, .f32⟩) main_call0_v0) (fun x v => Host.reduce FloatOps.maximumf x v reducesTo_S8x200x50x1024_S8x200x50_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S8x200x50, .f32⟩) main_call0_v1) (broadcastInDim S8x200x50 ![] bcast_S_S8x200x50),
    TRef.binary (TRef.of (T := ⟨S8x200x50, .f32⟩) main_call0_v1) (TRef.of (T := ⟨S8x200x50, .f32⟩) main_call0_v0) (TRef.of (T := ⟨S8x200x50, .f32⟩) main_call0_v2) maximumf,
    TRef.unary (TRef.of (T := ⟨S8x200x50, .f32⟩) main_call0_v2) (TRef.of (T := ⟨S8x200x50x1, .f32⟩) main_call0_v3) (broadcastInDim S8x200x50x1 ![0, 1, 2] bcast_S8x200x50_S8x200x50x1_0_1_2),
    TRef.unary (TRef.of (T := ⟨S8x200x50x1, .f32⟩) main_call0_v3) (TRef.of (T := ⟨S8x200x50x1024, .f32⟩) main_call0_v4) (broadcastInDim S8x200x50x1024 ![0, 1, 2, 3] bcast_S8x200x50x1_S8x200x50x1024_0_1_2_3),
    TRef.binary (TRef.of (T := ⟨S8x200x50x1024, .f32⟩) main_v17) (TRef.of (T := ⟨S8x200x50x1024, .f32⟩) main_call0_v4) (TRef.of (T := ⟨S8x200x50x1024, .f32⟩) main_call0_v5) subf,
    TRef.unary (TRef.of (T := ⟨S8x200x50x1024, .f32⟩) main_call0_v5) (TRef.of (T := ⟨S8x200x50x1024, .f32⟩) main_call0_v6) Host.exp,
    TRef.nullary (TRef.of (T := ⟨S_, .f32⟩) main_call0_cst_1) (constant S_ .f32 0x00000000#32),
    TRef.binary (TRef.of (T := ⟨S8x200x50x1024, .f32⟩) main_call0_v6) (TRef.of (T := ⟨S_, .f32⟩) main_call0_cst_1) (TRef.of (T := ⟨S8x200x50, .f32⟩) main_call0_v7) (fun x v => Host.reduceAdd x v reducesTo_S8x200x50x1024_S8x200x50_d3 h_S_),
    TRef.unary (TRef.of (T := ⟨S8x200x50, .f32⟩) main_call0_v7) (TRef.of (T := ⟨S8x200x50x1, .f32⟩) main_call0_v8) (broadcastInDim S8x200x50x1 ![0, 1, 2] bcast_S8x200x50_S8x200x50x1_0_1_2),
    TRef.unary (TRef.of (T := ⟨S8x200x50x1, .f32⟩) main_call0_v8) (TRef.of (T := ⟨S8x200x50x1, .f32⟩) main_call0_v9) Host.log,
    TRef.unary (TRef.of (T := ⟨S8x200x50x1, .f32⟩) main_call0_v9) (TRef.of (T := ⟨S8x200x50x1024, .f32⟩) main_call0_v10) (broadcastInDim S8x200x50x1024 ![0, 1, 2, 3] bcast_S8x200x50x1_S8x200x50x1024_0_1_2_3),
    TRef.binary (TRef.of (T := ⟨S8x200x50x1024, .f32⟩) main_call0_v5) (TRef.of (T := ⟨S8x200x50x1024, .f32⟩) main_call0_v10) (TRef.of (T := ⟨S8x200x50x1024, .f32⟩) main_v18) subf ]

/-- All 33 operations of @main, in order. -/
abbrev ops : List (HloOp τ sig (Elt F)) :=
  [ binary main_arg0 main_arg2 main_v0 ((fun l r => Host.dotGeneral dot_S8x200x512_S1024x512_S8x200x1024_2_1_01_0_n_n none l r) : (⟨S8x200x512, .f32⟩ : BufTy).Contents (Elt F) → (⟨S1024x512, .f32⟩ : BufTy).Contents (Elt F) → (⟨S8x200x1024, .f32⟩ : BufTy).Contents (Elt F)),
    unary main_arg3 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S8x200x1024 ![0, 1, 2] bcast_S1x1x1024_S8x200x1024_0_1_2 : (⟨S1x1x1024, .f32⟩ : BufTy).Contents (Elt F) → (⟨S8x200x1024, .f32⟩ : BufTy).Contents (Elt F)),
    binary main_v0 main_v2 main_v3 (addf : (⟨S8x200x1024, .f32⟩ : BufTy).Contents (Elt F) → (⟨S8x200x1024, .f32⟩ : BufTy).Contents (Elt F) → (⟨S8x200x1024, .f32⟩ : BufTy).Contents (Elt F)),
    binary main_arg1 main_arg4 main_v4 ((fun l r => Host.dotGeneral dot_S8x50x512_S1024x512_S8x50x1024_2_1_01_0_n_n none l r) : (⟨S8x50x512, .f32⟩ : BufTy).Contents (Elt F) → (⟨S1024x512, .f32⟩ : BufTy).Contents (Elt F) → (⟨S8x50x1024, .f32⟩ : BufTy).Contents (Elt F)),
    unary main_arg5 main_v5 (broadcastInDim S1x1x1024 ![2] bcast_S1024_S1x1x1024_2 : (⟨S1024, .f32⟩ : BufTy).Contents (Elt F) → (⟨S1x1x1024, .f32⟩ : BufTy).Contents (Elt F)),
    unary main_v5 main_v6 (broadcastInDim S8x50x1024 ![0, 1, 2] bcast_S1x1x1024_S8x50x1024_0_1_2 : (⟨S1x1x1024, .f32⟩ : BufTy).Contents (Elt F) → (⟨S8x50x1024, .f32⟩ : BufTy).Contents (Elt F)),
    binary main_v4 main_v6 main_v7 (addf : (⟨S8x50x1024, .f32⟩ : BufTy).Contents (Elt F) → (⟨S8x50x1024, .f32⟩ : BufTy).Contents (Elt F) → (⟨S8x50x1024, .f32⟩ : BufTy).Contents (Elt F)),
    unary main_v3 main_v8 (broadcastInDim S8x200x1x1024 ![0, 1, 3] bcast_S8x200x1024_S8x200x1x1024_0_1_3 : (⟨S8x200x1024, .f32⟩ : BufTy).Contents (Elt F) → (⟨S8x200x1x1024, .f32⟩ : BufTy).Contents (Elt F)),
    unary main_v7 main_v9 (broadcastInDim S8x1x50x1024 ![0, 2, 3] bcast_S8x50x1024_S8x1x50x1024_0_2_3 : (⟨S8x50x1024, .f32⟩ : BufTy).Contents (Elt F) → (⟨S8x1x50x1024, .f32⟩ : BufTy).Contents (Elt F)),
    unary main_v8 main_v10 (broadcastInDim S8x200x50x1024 ![0, 1, 2, 3] bcast_S8x200x1x1024_S8x200x50x1024_0_1_2_3 : (⟨S8x200x1x1024, .f32⟩ : BufTy).Contents (Elt F) → (⟨S8x200x50x1024, .f32⟩ : BufTy).Contents (Elt F)),
    unary main_v9 main_v11 (broadcastInDim S8x200x50x1024 ![0, 1, 2, 3] bcast_S8x1x50x1024_S8x200x50x1024_0_1_2_3 : (⟨S8x1x50x1024, .f32⟩ : BufTy).Contents (Elt F) → (⟨S8x200x50x1024, .f32⟩ : BufTy).Contents (Elt F)),
    binary main_v10 main_v11 main_v12 (addf : (⟨S8x200x50x1024, .f32⟩ : BufTy).Contents (Elt F) → (⟨S8x200x50x1024, .f32⟩ : BufTy).Contents (Elt F) → (⟨S8x200x50x1024, .f32⟩ : BufTy).Contents (Elt F)),
    unary main_v12 main_v13 (Host.tanh : (⟨S8x200x50x1024, .f32⟩ : BufTy).Contents (Elt F) → (⟨S8x200x50x1024, .f32⟩ : BufTy).Contents (Elt F)),
    binary main_v13 main_arg6 main_v14 ((fun l r => Host.dotGeneral dot_S8x200x50x1024_S1024x1024_S8x200x50x1024_3_1_012_0_n_n none l r) : (⟨S8x200x50x1024, .f32⟩ : BufTy).Contents (Elt F) → (⟨S1024x1024, .f32⟩ : BufTy).Contents (Elt F) → (⟨S8x200x50x1024, .f32⟩ : BufTy).Contents (Elt F)),
    unary main_arg7 main_v15 (broadcastInDim S1x1x1x1024 ![3] bcast_S1024_S1x1x1x1024_3 : (⟨S1024, .f32⟩ : BufTy).Contents (Elt F) → (⟨S1x1x1x1024, .f32⟩ : BufTy).Contents (Elt F)),
    unary main_v15 main_v16 (broadcastInDim S8x200x50x1024 ![0, 1, 2, 3] bcast_S1x1x1x1024_S8x200x50x1024_0_1_2_3 : (⟨S1x1x1x1024, .f32⟩ : BufTy).Contents (Elt F) → (⟨S8x200x50x1024, .f32⟩ : BufTy).Contents (Elt F)),
    binary main_v14 main_v16 main_v17 (addf : (⟨S8x200x50x1024, .f32⟩ : BufTy).Contents (Elt F) → (⟨S8x200x50x1024, .f32⟩ : BufTy).Contents (Elt F) → (⟨S8x200x50x1024, .f32⟩ : BufTy).Contents (Elt F)),
    TRef.nullary (TRef.of (T := ⟨S_, .f32⟩) main_call0_cst) (constant S_ .f32 0xFF800000#32),
    TRef.binary (TRef.of (T := ⟨S8x200x50x1024, .f32⟩) main_v17) (TRef.of (T := ⟨S_, .f32⟩) main_call0_cst) (TRef.of (T := ⟨S8x200x50, .f32⟩) main_call0_v0) (fun x v => Host.reduce FloatOps.maximumf x v reducesTo_S8x200x50x1024_S8x200x50_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S8x200x50, .f32⟩) main_call0_v1) (broadcastInDim S8x200x50 ![] bcast_S_S8x200x50),
    TRef.binary (TRef.of (T := ⟨S8x200x50, .f32⟩) main_call0_v1) (TRef.of (T := ⟨S8x200x50, .f32⟩) main_call0_v0) (TRef.of (T := ⟨S8x200x50, .f32⟩) main_call0_v2) maximumf,
    TRef.unary (TRef.of (T := ⟨S8x200x50, .f32⟩) main_call0_v2) (TRef.of (T := ⟨S8x200x50x1, .f32⟩) main_call0_v3) (broadcastInDim S8x200x50x1 ![0, 1, 2] bcast_S8x200x50_S8x200x50x1_0_1_2),
    TRef.unary (TRef.of (T := ⟨S8x200x50x1, .f32⟩) main_call0_v3) (TRef.of (T := ⟨S8x200x50x1024, .f32⟩) main_call0_v4) (broadcastInDim S8x200x50x1024 ![0, 1, 2, 3] bcast_S8x200x50x1_S8x200x50x1024_0_1_2_3),
    TRef.binary (TRef.of (T := ⟨S8x200x50x1024, .f32⟩) main_v17) (TRef.of (T := ⟨S8x200x50x1024, .f32⟩) main_call0_v4) (TRef.of (T := ⟨S8x200x50x1024, .f32⟩) main_call0_v5) subf,
    TRef.unary (TRef.of (T := ⟨S8x200x50x1024, .f32⟩) main_call0_v5) (TRef.of (T := ⟨S8x200x50x1024, .f32⟩) main_call0_v6) Host.exp,
    TRef.nullary (TRef.of (T := ⟨S_, .f32⟩) main_call0_cst_1) (constant S_ .f32 0x00000000#32),
    TRef.binary (TRef.of (T := ⟨S8x200x50x1024, .f32⟩) main_call0_v6) (TRef.of (T := ⟨S_, .f32⟩) main_call0_cst_1) (TRef.of (T := ⟨S8x200x50, .f32⟩) main_call0_v7) (fun x v => Host.reduceAdd x v reducesTo_S8x200x50x1024_S8x200x50_d3 h_S_),
    TRef.unary (TRef.of (T := ⟨S8x200x50, .f32⟩) main_call0_v7) (TRef.of (T := ⟨S8x200x50x1, .f32⟩) main_call0_v8) (broadcastInDim S8x200x50x1 ![0, 1, 2] bcast_S8x200x50_S8x200x50x1_0_1_2),
    TRef.unary (TRef.of (T := ⟨S8x200x50x1, .f32⟩) main_call0_v8) (TRef.of (T := ⟨S8x200x50x1, .f32⟩) main_call0_v9) Host.log,
    TRef.unary (TRef.of (T := ⟨S8x200x50x1, .f32⟩) main_call0_v9) (TRef.of (T := ⟨S8x200x50x1024, .f32⟩) main_call0_v10) (broadcastInDim S8x200x50x1024 ![0, 1, 2, 3] bcast_S8x200x50x1_S8x200x50x1024_0_1_2_3),
    TRef.binary (TRef.of (T := ⟨S8x200x50x1024, .f32⟩) main_call0_v5) (TRef.of (T := ⟨S8x200x50x1024, .f32⟩) main_call0_v10) (TRef.of (T := ⟨S8x200x50x1024, .f32⟩) main_v18) subf ]

/-- The whole line is the two parts one after the other. -/
theorem ops_eq : (ops : List (HloOp τ sig (Elt F))) = opsA ++ opsB := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffers after a concatenation: the second part run from what the first part leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The log-softmax half, over one unknown array of logits -/

/-- The largest logit of each row (b, t, u): the maximum of the pattern of −∞, spread over the rows, with the fold of
    the maximum along the last axis started from the same pattern. -/
def rowMaxArr (x : (⟨S8x200x50x1024, .f32⟩ : BufTy).Contents (Elt F)) : (⟨S8x200x50, .f32⟩ : BufTy).Contents (Elt F) :=
  maximumf (broadcastInDim S8x200x50 ![] bcast_S_S8x200x50 (constant S_ .f32 0xFF800000#32))
    (Host.reduce FloatOps.maximumf x (constant S_ .f32 0xFF800000#32) reducesTo_S8x200x50x1024_S8x200x50_d3 h_S_)

/-- The logits less their row's largest: `x(b,t,u,v) − M(b,t,u)`, the row maximum spread back along the last axis. -/
def shifted (x : (⟨S8x200x50x1024, .f32⟩ : BufTy).Contents (Elt F)) : (⟨S8x200x50x1024, .f32⟩ : BufTy).Contents (Elt F) :=
  subf x (broadcastInDim S8x200x50x1024 ![0, 1, 2, 3] bcast_S8x200x50x1_S8x200x50x1024_0_1_2_3
    (broadcastInDim S8x200x50x1 ![0, 1, 2] bcast_S8x200x50_S8x200x50x1_0_1_2 (rowMaxArr x)))

/-- The log-softmax along the last axis: the shifted logits less the logarithm of the row's sum of their exponentials
    (the sum started from the pattern of zero). -/
def hostLogSoftmax (x : (⟨S8x200x50x1024, .f32⟩ : BufTy).Contents (Elt F)) : (⟨S8x200x50x1024, .f32⟩ : BufTy).Contents (Elt F) :=
  subf (shifted x) (broadcastInDim S8x200x50x1024 ![0, 1, 2, 3] bcast_S8x200x50x1_S8x200x50x1024_0_1_2_3
    (Host.log (broadcastInDim S8x200x50x1 ![0, 1, 2] bcast_S8x200x50_S8x200x50x1_0_1_2
      (Host.reduceAdd (Host.exp (shifted x)) (constant S_ .f32 0x00000000#32) reducesTo_S8x200x50x1024_S8x200x50_d3 h_S_))))

/-- Contents moved to a typed reference's buffer type and back are the contents: the two transports are along one
    equation of types and its inverse. -/
theorem ofBuf_toBuf {T : BufTy} (x : TRef sig T) (v : T.Contents (Elt F)) : x.ofBuf (x.toBuf v) = v := by
  obtain ⟨r, h, _, _⟩ := x
  subst h
  rfl

/-- From any contents, the 15 log-softmax operations leave at `main_v18` the log-softmax of what `main_v17` held.
    Each operation's result read at its own buffer is its function of its operands' buffers, and every other buffer is
    as it was; that composes the fifteen functions over the one operand. Every intermediate value goes to its buffer's
    type and straight back (`ofBuf_toBuf`); what is left is the transport of the operand from `main_v17`'s buffer type
    and of the result to `main_v18`'s, both the identity since those buffer types are the array type itself. -/
theorem after_opsB_v18 (W : Valuation τ sig (Elt F)) :
    after opsB W (Proc.devRef .tc main_v18) = hostLogSoftmax (F := F) (W (Proc.devRef .tc main_v17)) := by
  after_results
  simp only [ofBuf_toBuf]
  have hx : (TRef.of (T := ⟨S8x200x50x1024, .f32⟩) main_v17).ofBuf (W (Proc.devRef .tc main_v17))
      = W (Proc.devRef .tc main_v17) := rfl
  rw [hx]
  unfold hostLogSoftmax shifted rowMaxArr
  rfl

/-! ## The logits' half -/

/-- From any contents, the first 18 operations leave at `main_v17` the staged logits of the arguments' contents. -/
theorem after_opsA_v17 (V : Valuation τ sig (Elt F)) :
    after opsA V (Proc.devRef .tc main_v17)
      = Cert.ReferenceIdeal.Read.val_main_v17 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp <;> rfl

/-- The staged result is the log-softmax half at the staged logits: the stages `call0_v2`, `call0_v5` and `v18` are
    `rowMaxArr`, `shifted` and `hostLogSoftmax` of `val_main_v17`, one definition unfolded after another. -/
theorem val_main_v18_eq_hostLogSoftmax (x0 : (⟨S8x200x512, .f32⟩ : BufTy).Contents (Elt F)) (x1 : (⟨S8x50x512, .f32⟩ : BufTy).Contents (Elt F)) (x2 : (⟨S1024x512, .f32⟩ : BufTy).Contents (Elt F)) (x3 : (⟨S1024, .f32⟩ : BufTy).Contents (Elt F)) (x4 : (⟨S1024x512, .f32⟩ : BufTy).Contents (Elt F)) (x5 : (⟨S1024, .f32⟩ : BufTy).Contents (Elt F)) (x6 : (⟨S1024x1024, .f32⟩ : BufTy).Contents (Elt F)) (x7 : (⟨S1024, .f32⟩ : BufTy).Contents (Elt F)) :
    Cert.ReferenceIdeal.Read.val_main_v18 (F := F) x0 x1 x2 x3 x4 x5 x6 x7
      = hostLogSoftmax (F := F) (Cert.ReferenceIdeal.Read.val_main_v17 (F := F) x0 x1 x2 x3 x4 x5 x6 x7) := by
  generalize hx : Cert.ReferenceIdeal.Read.val_main_v17 (F := F) x0 x1 x2 x3 x4 x5 x6 x7 = x
  unfold Cert.ReferenceIdeal.Read.val_main_v18 Cert.ReferenceIdeal.Read.val_main_call0_v10 Cert.ReferenceIdeal.Read.val_main_call0_v9
    Cert.ReferenceIdeal.Read.val_main_call0_v8 Cert.ReferenceIdeal.Read.val_main_call0_v7 Cert.ReferenceIdeal.Read.val_main_call0_v6
    Cert.ReferenceIdeal.Read.val_main_call0_v5 Cert.ReferenceIdeal.Read.val_main_call0_v4 Cert.ReferenceIdeal.Read.val_main_call0_v3
    Cert.ReferenceIdeal.Read.val_main_call0_v2 Cert.ReferenceIdeal.Read.val_main_call0_v1 Cert.ReferenceIdeal.Read.val_main_call0_v0
    Cert.ReferenceIdeal.Read.val_main_call0_cst Cert.ReferenceIdeal.Read.val_main_call0_cst_0 Cert.ReferenceIdeal.Read.val_main_call0_cst_1
    hostLogSoftmax shifted rowMaxArr
  rw [hx]

/-! ## The whole line -/

/-- After all 33 operations the result buffer holds the staged result of the arguments' contents. -/
theorem after_ops_v18 (V : Valuation τ sig (Elt F)) :
    after ops V (Proc.devRef .tc main_v18)
      = Cert.ReferenceIdeal.Read.val_main_v18 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_eq, after_append, after_opsB_v18, after_opsA_v17]
  exact (val_main_v18_eq_hostLogSoftmax _ _ _ _ _ _ _ _).symm

/-! No operation writes an argument's buffer. -/
theorem after_ops_arg0 (V : Valuation τ sig (Elt F)) :
    after ops V (Proc.devRef .tc main_arg0) = V (Proc.devRef .tc main_arg0) := by
  after_results_simp <;> rfl
theorem after_ops_arg1 (V : Valuation τ sig (Elt F)) :
    after ops V (Proc.devRef .tc main_arg1) = V (Proc.devRef .tc main_arg1) := by
  after_results_simp <;> rfl
theorem after_ops_arg2 (V : Valuation τ sig (Elt F)) :
    after ops V (Proc.devRef .tc main_arg2) = V (Proc.devRef .tc main_arg2) := by
  after_results_simp <;> rfl
theorem after_ops_arg3 (V : Valuation τ sig (Elt F)) :
    after ops V (Proc.devRef .tc main_arg3) = V (Proc.devRef .tc main_arg3) := by
  after_results_simp <;> rfl
theorem after_ops_arg4 (V : Valuation τ sig (Elt F)) :
    after ops V (Proc.devRef .tc main_arg4) = V (Proc.devRef .tc main_arg4) := by
  after_results_simp <;> rfl
theorem after_ops_arg5 (V : Valuation τ sig (Elt F)) :
    after ops V (Proc.devRef .tc main_arg5) = V (Proc.devRef .tc main_arg5) := by
  after_results_simp <;> rfl
theorem after_ops_arg6 (V : Valuation τ sig (Elt F)) :
    after ops V (Proc.devRef .tc main_arg6) = V (Proc.devRef .tc main_arg6) := by
  after_results_simp <;> rfl
theorem after_ops_arg7 (V : Valuation τ sig (Elt F)) :
    after ops V (Proc.devRef .tc main_arg7) = V (Proc.devRef .tc main_arg7) := by
  after_results_simp <;> rfl

/-- On every device, for any float values, from any memory with zero counters: every weakly fair execution of
    @main terminates with the result buffer at the staged value of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = Cert.ReferenceIdeal.Read.val_main_v18 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v18).trans (after_ops_v18 _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _)⟩)
    (run_seq scopedRefs_eq scopedSems_eq defs main (fun _ => ops) main_eq (fun _ => ops_sub) m ρ)

end Cert.ReferenceIdeal.RefRun

end
-- ==== Proof.RefValue.lean ====
/-
  The reference program's result, index by index, is the joint network's output.

  The staged value `val_main_v18` of the reference is read at an index (b, t, u, v), one stage at a time:
    * the two projections: a dot product over the 512 features plus a bias, the bias spread over the leading axes
      (stages v0–v3 for the encoder frame, v4–v7 for the decoder position);
    * their outer sum over (t, u), the tanh, the product with the output weights over the 1024 joint coordinates and the
      output bias (stages v8–v17): the logit l(b,t,u,v);
    * the log-softmax along the last axis (the called function's stages): the row's largest logit M as a fold of `max`
      from the pattern of −∞ (maximised once more with that pattern, which changes nothing), the shifted logits
      l − M, the sum of their exponentials started from the pattern of zero (which is 0), its logarithm spread back
      along the row, and the final difference.
  A layout stage (a spread of an array over new or unit axes) reads its operand at an index computed from the literal
  shapes; at an index built from its coordinates that index is again one built from coordinates, which is checked axis
  by axis. Elementwise stages are their scalar operation at the index, by definition.
-/
import proofs.«179519_j66511863545982_2_alg».proof.Proof.RefRead
import proofs.«179519_j66511863545982_2_alg».proof.Proof.JoinSpec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

section Stages

variable (x0 : (⟨S8x200x512, .f32⟩ : BufTy).Contents (Elt Ideal))
  (x1 : (⟨S8x50x512, .f32⟩ : BufTy).Contents (Elt Ideal))
  (x2 : (⟨S1024x512, .f32⟩ : BufTy).Contents (Elt Ideal))
  (x3 : (⟨S1024, .f32⟩ : BufTy).Contents (Elt Ideal))
  (x4 : (⟨S1024x512, .f32⟩ : BufTy).Contents (Elt Ideal))
  (x5 : (⟨S1024, .f32⟩ : BufTy).Contents (Elt Ideal))
  (x6 : (⟨S1024x1024, .f32⟩ : BufTy).Contents (Elt Ideal))
  (x7 : (⟨S1024, .f32⟩ : BufTy).Contents (Elt Ideal))

/-! ## The projections -/

/-- The encoder projection at (b, t, j): the inner product of frame (b, t) with row j of the encoder weights, plus the
    bias at j (the bias array is spread over the two leading axes, so it is read at j alone). -/
theorem enc_proj (b : Fin 8) (t : Fin 200) (j : Fin 1024) :
    val_main_v3 (F := Ideal) x0 x2 x3 (ix3 b t j)
      = JoinSpec.proj (fun d : Fin 512 => x0 (ix3 b t d)) (fun d : Fin 512 => x2 (ix2 j d)) (x3 (ix1 j)) := by
  have hl : ∀ k : Fin 512, lidx_main_v0 (ix3 b t j) k = ix3 b t k := fun k => funext fun a => by
    match a with | ⟨0, _⟩ => rfl | ⟨1, _⟩ => rfl | ⟨2, _⟩ => rfl
  have hr : ∀ k : Fin 512, ridx_main_v0 (ix3 b t j) k = ix2 j k := fun k => funext fun a => by
    match a with | ⟨0, _⟩ => rfl | ⟨1, _⟩ => rfl
  have hb : idx_main_v1 (idx_main_v2 (ix3 b t j)) = ix1 j := funext fun a => by
    match a with | ⟨0, _⟩ => rfl
  rw [val_main_v3_apply, val_main_v0_apply, val_main_v2_apply, val_main_v1_apply, hb]
  unfold JoinSpec.proj
  exact congrArg (· + x3 (ix1 j)) (Finset.sum_congr rfl fun k _ => by rw [hl k, hr k])

/-- The decoder projection at (b, u, j), likewise. -/
theorem dec_proj (b : Fin 8) (u : Fin 50) (j : Fin 1024) :
    val_main_v7 (F := Ideal) x1 x4 x5 (ix3 b u j)
      = JoinSpec.proj (fun d : Fin 512 => x1 (ix3 b u d)) (fun d : Fin 512 => x4 (ix2 j d)) (x5 (ix1 j)) := by
  have hl : ∀ k : Fin 512, lidx_main_v4 (ix3 b u j) k = ix3 b u k := fun k => funext fun a => by
    match a with | ⟨0, _⟩ => rfl | ⟨1, _⟩ => rfl | ⟨2, _⟩ => rfl
  have hr : ∀ k : Fin 512, ridx_main_v4 (ix3 b u j) k = ix2 j k := fun k => funext fun a => by
    match a with | ⟨0, _⟩ => rfl | ⟨1, _⟩ => rfl
  have hb : idx_main_v5 (idx_main_v6 (ix3 b u j)) = ix1 j := funext fun a => by
    match a with | ⟨0, _⟩ => rfl
  rw [val_main_v7_apply, val_main_v4_apply, val_main_v6_apply, val_main_v5_apply, hb]
  unfold JoinSpec.proj
  exact congrArg (· + x5 (ix1 j)) (Finset.sum_congr rfl fun k _ => by rw [hl k, hr k])

/-! ## The logits -/

/-- The encoder projection spread over the decoder axis: at (b, t, u, j) it is the projection at (b, t, j). -/
theorem enc_spread (b : Fin 8) (t : Fin 200) (u : Fin 50) (j : Fin 1024) :
    val_main_v10 (F := Ideal) x0 x2 x3 (ix4 b t u j) = val_main_v3 (F := Ideal) x0 x2 x3 (ix3 b t j) := by
  rw [val_main_v10_apply, val_main_v8_apply]
  exact congrArg _ (funext fun a => by match a with | ⟨0, _⟩ => rfl | ⟨1, _⟩ => rfl | ⟨2, _⟩ => rfl)

/-- The decoder projection spread over the encoder axis: at (b, t, u, j) it is the projection at (b, u, j). -/
theorem dec_spread (b : Fin 8) (t : Fin 200) (u : Fin 50) (j : Fin 1024) :
    val_main_v11 (F := Ideal) x1 x4 x5 (ix4 b t u j) = val_main_v7 (F := Ideal) x1 x4 x5 (ix3 b u j) := by
  rw [val_main_v11_apply, val_main_v9_apply]
  exact congrArg _ (funext fun a => by match a with | ⟨0, _⟩ => rfl | ⟨1, _⟩ => rfl | ⟨2, _⟩ => rfl)

/-- The logit at (b, t, u, w): over the joint coordinate j, the tanh of the sum of the two projections times the output
    weight (w, j), summed, plus the output bias at w. -/
theorem logits_apply (b : Fin 8) (t : Fin 200) (u : Fin 50) (w : Fin 1024) :
    val_main_v17 (F := Ideal) x0 x1 x2 x3 x4 x5 x6 x7 (ix4 b t u w)
      = JoinSpec.logit
          (fun j : Fin 1024 => JoinSpec.proj (fun d : Fin 512 => x0 (ix3 b t d)) (fun d : Fin 512 => x2 (ix2 j d)) (x3 (ix1 j)))
          (fun j : Fin 1024 => JoinSpec.proj (fun d : Fin 512 => x1 (ix3 b u d)) (fun d : Fin 512 => x4 (ix2 j d)) (x5 (ix1 j)))
          (fun j : Fin 1024 => x6 (ix2 w j)) (x7 (ix1 w)) := by
  have hl : ∀ k : Fin 1024, lidx_main_v14 (ix4 b t u w) k = ix4 b t u k := fun k => funext fun a => by
    match a with | ⟨0, _⟩ => rfl | ⟨1, _⟩ => rfl | ⟨2, _⟩ => rfl | ⟨3, _⟩ => rfl
  have hr : ∀ k : Fin 1024, ridx_main_v14 (ix4 b t u w) k = ix2 w k := fun k => funext fun a => by
    match a with | ⟨0, _⟩ => rfl | ⟨1, _⟩ => rfl
  have hb : idx_main_v15 (idx_main_v16 (ix4 b t u w)) = ix1 w := funext fun a => by
    match a with | ⟨0, _⟩ => rfl
  rw [val_main_v17_apply, val_main_v14_apply, val_main_v16_apply, val_main_v15_apply, hb]
  unfold JoinSpec.logit
  refine congrArg (· + x7 (ix1 w)) (Finset.sum_congr rfl fun k _ => ?_)
  rw [hl k, hr k, val_main_v13_apply, val_main_v12_apply, enc_spread, dec_spread, enc_proj, dec_proj]
  rfl

/-! ## The row maximum -/

/-- The largest logit of row (b, t, u): the fold of `max` along the last axis from the pattern of −∞, maximised once
    more with the pattern spread over the rows — which is the row's fold itself. -/
theorem rowmax_apply (b : Fin 8) (t : Fin 200) (u : Fin 50) :
    val_main_call0_v2 (F := Ideal) x0 x1 x2 x3 x4 x5 x6 x7 (ix3 b t u)
      = JoinSpec.rowMax (fun w : Fin 1024 => val_main_v17 (F := Ideal) x0 x1 x2 x3 x4 x5 x6 x7 (ix4 b t u w)) := by
  have h0 : val_main_call0_v0 (F := Ideal) x0 x1 x2 x3 x4 x5 x6 x7 (ix3 b t u)
      = JoinSpec.rowMax (fun w : Fin 1024 => val_main_v17 (F := Ideal) x0 x1 x2 x3 x4 x5 x6 x7 (ix4 b t u w)) := by
    unfold val_main_call0_v0
    generalize val_main_v17 (F := Ideal) x0 x1 x2 x3 x4 x5 x6 x7 = y
    have hR : S8x200x50x1024.Reduces [3] S8x200x50 := by decide
    -- the fold over the indices of the row is the fold over the last coordinate w, the row's index being (b, t, u, w)
    have hf : (y ∘ hR.lift (ix3 b t u)) = fun w : Fin 1024 => y (ix4 b t u w) :=
      funext fun w => congrArg y (funext fun a => Fin.ext (by
        match a with | ⟨0, _⟩ => rfl | ⟨1, _⟩ => rfl | ⟨2, _⟩ => rfl | ⟨3, _⟩ => rfl))
    refine (Host.reduce_eq_fold_single (α := Ideal .f32) (FloatOps.maximumf (F := Ideal) (φ := .f32)) y
      (val_main_call0_cst (F := Ideal)) reducesTo_S8x200x50x1024_S8x200x50_d3 hR h_S_ (ix3 b t u)).trans ?_
    rw [hf]
    rfl
  rw [val_main_call0_v2_apply, h0, val_main_call0_v1_apply]
  exact JoinSpec.max_rowMax _

/-! ## The log-softmax -/

/-- The shifted logit at (b, t, u, v): the logit less its row's largest (the row maximum is spread back along the row
    through a unit axis, so it is read at (b, t, u)). -/
theorem shifted_apply (b : Fin 8) (t : Fin 200) (u : Fin 50) (v : Fin 1024) :
    val_main_call0_v5 (F := Ideal) x0 x1 x2 x3 x4 x5 x6 x7 (ix4 b t u v)
      = val_main_v17 (F := Ideal) x0 x1 x2 x3 x4 x5 x6 x7 (ix4 b t u v)
        - JoinSpec.rowMax (fun w : Fin 1024 => val_main_v17 (F := Ideal) x0 x1 x2 x3 x4 x5 x6 x7 (ix4 b t u w)) := by
  have hb : idx_main_call0_v3 (idx_main_call0_v4 (ix4 b t u v)) = ix3 b t u := funext fun a => by
    match a with | ⟨0, _⟩ => rfl | ⟨1, _⟩ => rfl | ⟨2, _⟩ => rfl
  rw [val_main_call0_v5_apply, val_main_call0_v4_apply, val_main_call0_v3_apply, hb, rowmax_apply]
  rfl

/-- The row's sum of exponentials at (b, t, u): started from the pattern of zero, which is 0. -/
theorem sumexp_apply (b : Fin 8) (t : Fin 200) (u : Fin 50) :
    val_main_call0_v7 (F := Ideal) x0 x1 x2 x3 x4 x5 x6 x7 (ix3 b t u)
      = ∑ w : Fin 1024, Ideal.exp (val_main_v17 (F := Ideal) x0 x1 x2 x3 x4 x5 x6 x7 (ix4 b t u w)
          - JoinSpec.rowMax (fun w' : Fin 1024 => val_main_v17 (F := Ideal) x0 x1 x2 x3 x4 x5 x6 x7 (ix4 b t u w'))) := by
  have hk : ∀ k : Fin 1024, idx_main_call0_v7 (ix3 b t u) k = ix4 b t u k := fun k => funext fun a => by
    match a with | ⟨0, _⟩ => rfl | ⟨1, _⟩ => rfl | ⟨2, _⟩ => rfl | ⟨3, _⟩ => rfl
  rw [val_main_call0_v7_apply, val_main_call0_cst_1_apply]
  show Ideal.ofBits .f32 0x00000000#32 + _ = _
  rw [Ideal.ofBits_zero_f32, zero_add]
  refine Finset.sum_congr rfl fun k _ => ?_
  rw [hk k, val_main_call0_v6_apply, shifted_apply]
  rfl

/-- The logarithm of the row's sum, spread back along the row: at (b, t, u, v) it is read at (b, t, u). -/
theorem logsum_apply (b : Fin 8) (t : Fin 200) (u : Fin 50) (v : Fin 1024) :
    val_main_call0_v10 (F := Ideal) x0 x1 x2 x3 x4 x5 x6 x7 (ix4 b t u v)
      = Ideal.log (∑ w : Fin 1024, Ideal.exp (val_main_v17 (F := Ideal) x0 x1 x2 x3 x4 x5 x6 x7 (ix4 b t u w)
          - JoinSpec.rowMax (fun w' : Fin 1024 => val_main_v17 (F := Ideal) x0 x1 x2 x3 x4 x5 x6 x7 (ix4 b t u w')))) := by
  have hb : idx_main_call0_v8 (idx_main_call0_v10 (ix4 b t u v)) = ix3 b t u := funext fun a => by
    match a with | ⟨0, _⟩ => rfl | ⟨1, _⟩ => rfl | ⟨2, _⟩ => rfl
  rw [val_main_call0_v10_apply, val_main_call0_v9_apply, val_main_call0_v8_apply, hb, sumexp_apply]
  rfl

/-- The result at (b, t, u, v) is the log-softmax of the row of logits at v. -/
theorem result_apply (b : Fin 8) (t : Fin 200) (u : Fin 50) (v : Fin 1024) :
    val_main_v18 (F := Ideal) x0 x1 x2 x3 x4 x5 x6 x7 (ix4 b t u v)
      = JoinSpec.logSoftmax (fun w : Fin 1024 => val_main_v17 (F := Ideal) x0 x1 x2 x3 x4 x5 x6 x7 (ix4 b t u w)) v := by
  rw [val_main_v18_apply, shifted_apply, logsum_apply]
  rfl

end Stages

/-- The reference's staged result is the joint network's output array. -/
theorem ref_eq (x0 : (⟨S8x200x512, .f32⟩ : BufTy).Contents (Elt Ideal)) (x1 : (⟨S8x50x512, .f32⟩ : BufTy).Contents (Elt Ideal)) (x2 : (⟨S1024x512, .f32⟩ : BufTy).Contents (Elt Ideal)) (x3 : (⟨S1024, .f32⟩ : BufTy).Contents (Elt Ideal)) (x4 : (⟨S1024x512, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) :
    Cert.ReferenceIdeal.Read.val_main_v18 (F := Ideal) x0 x1 x2 x3 x4 x5 x6 x7 = JoinSpec.outArr x0 x1 x2 x3 x4 x5 x6 x7 := by
  funext i
  obtain ⟨b, t, u, v, rfl⟩ : ∃ (b : Fin 8) (t : Fin 200) (u : Fin 50) (v : Fin 1024), i = ValueIdx.ix4 b t u v :=
    ⟨i 0, i 1, i 2, i 3, ValueIdx.eq_ix4 i⟩
  rw [result_apply]
  show _ = JoinSpec.out x0 x1 x2 x3 x4 x5 x6 x7 b t u v
  unfold JoinSpec.out
  exact congrArg (fun f => JoinSpec.logSoftmax f v) (funext fun w => logits_apply x0 x1 x2 x3 x4 x5 x6 x7 b t u w)

end Cert.ReferenceIdeal.RefValue

end
-- ==== Proof.lean ====
/-
  The joint network of a transducer — for every batch row, encoder frame and decoder position, the log-softmax over the
  vocabulary of `tanh(frame projected + position projected)` times the output weights, plus bias — as one fused
  kernel, against the plain array program.

  The kernel walks a grid of 8 batch rows × 5 tiles of forty frames. At the first tile of a row it projects the row's
  decoder positions (padded from 50 to 56 rows) and keeps the result in a scratch buffer for the row's other four
  tiles; every tile then handles its frames eight at a time: project the frames, add every projected frame to every
  projected position, apply tanh, multiply by the output weights, take the row-wise log-softmax, and store the rows of
  the 50 true positions. The reference computes the same thing with whole-array operations.

  Over the extended reals the two are the same function of the eight arguments, index by index, with no algebra
  between them beyond what the operations are: a matrix product into a zero accumulator is the plain sum of products
  (the contraction over the joint axis is not split, so no sum is regrouped); a change of float format is the identity;
  a transposed weight matrix read at `(k, j)` is the matrix at `(j, k)`; the padded decoder rows are never stored; the
  row maximum is on both sides a fold of `max` from the pattern of −∞ (the reference takes one more maximum with that
  pattern, which changes nothing); the exponentials' sum starts from the zero pattern on the reference's side. No
  step uses that the inputs are finite, so the precondition is not opened.

  The kernel's side: `JoinChunk` reads one chunk's stored value at an index, `JoinBlock` turns the five stores of a
  point into one function of the block index and reads the scratch, `JoinPoints` carries the scratch's contents from
  point to point by induction, `JoinHost` reads the staged arrays back to the arguments, `JoinArray` puts the blocks
  into the result array. The reference's side: `RefRun` (its run) and `RefValue` (its result at an index).
  The three frames are the generated ones (the reference's is its run with the result dropped); the idealization
  rewrote nothing, so `preserves` is trivial.
-/
import proofs.«179519_j66511863545982_2_alg».proof.Defs
import proofs.«179519_j66511863545982_2_alg».proof.Proof.Gen.Kernel
import proofs.«179519_j66511863545982_2_alg».proof.Proof.Gen.Kernel.Skeleton
import proofs.«179519_j66511863545982_2_alg».proof.Proof.Gen.Kernel.Launch
import proofs.«179519_j66511863545982_2_alg».proof.Proof.Gen.Kernel.Points
import proofs.«179519_j66511863545982_2_alg».proof.Proof.Gen.Kernel.Frame
import proofs.«179519_j66511863545982_2_alg».proof.Proof.Gen.KernelIdeal
import proofs.«179519_j66511863545982_2_alg».proof.Proof.Gen.KernelIdeal.Skeleton
import proofs.«179519_j66511863545982_2_alg».proof.Proof.Gen.KernelIdeal.Launch
import proofs.«179519_j66511863545982_2_alg».proof.Proof.Gen.KernelIdeal.Points
import proofs.«179519_j66511863545982_2_alg».proof.Proof.Gen.KernelIdeal.Frame
import proofs.«179519_j66511863545982_2_alg».proof.Proof.Gen.ReferenceIdeal
import proofs.«179519_j66511863545982_2_alg».proof.Proof.Gen.Pre_finite_inputs
import proofs.«179519_j66511863545982_2_alg».proof.Proof.Gen.KernelIdeal.Value
import proofs.«179519_j66511863545982_2_alg».proof.Proof.JoinArray
import proofs.«179519_j66511863545982_2_alg».proof.Proof.RefRun
import proofs.«179519_j66511863545982_2_alg».proof.Proof.RefValue
import Idealize.ShloMosaic.Adequacy
import Idealize.ShloMosaic.Init

noncomputable section

namespace Cert.Proof

open Idealize.ShloMosaic Idealize.SL.Sem Cert.Kernel

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Over the extended reals the kernel's result array ends at the network's output of its arguments, and the
    reference's at the same function of arguments that agree. -/
theorem algebraic : Cert.algebraic_KernelIdeal_ReferenceIdeal := by
  intro m ρ m' ρ' _ hagree
  refine ⟨fun c => Cert.KernelIdeal.JoinArray.result m c, Cert.KernelIdeal.JoinArray.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
